-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S_ : Shape := ⟨0, ![]⟩

class Facts : Prop where
  bcast_S_S4096x49x384 : S_.BroadcastsInDim S4096x49x384 (![] : Fin 0 → Fin S4096x49x384.rank)
  reducesTo_S4096x49x384_S_d0_1_2 : S4096x49x384.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S169x12 : S_.BroadcastsInDim S169x12 (![] : Fin 0 → Fin S169x12.rank)
  reducesTo_S169x12_S_d0_1 : S169x12.ReducesTo [0, 1] S_

variable [Facts]

def fn_part1 {F : FTy → Type} [FloatOps F] (main_arg4 : FVec F S384x384 .f32) (main_arg5 : FVec F S384 .f32) (main_arg6 : FVec F S169x12 .f32) (main_v13 : IVec S_ 1) (main_v16 : IVec S1152 1) : IVec S_ 1 :=
  let main_c_5 : IVec S_ 1 := constantI S_ 1 1#1
  let main_v17 : IVec S_ 1 := (fun x v => Host.reduce IntOp.andi x v reducesTo_S1152_S_d0 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S169x12 .f32 := Host.absf main_arg6
  let main_cst_10 : FVec F S_ .f32 := constant S_ .f32 0x7F800000#32
  let main_v30 : FVec F S169x12 .f32 := broadcastInDim S169x12 ![] bcast_S_S169x12 main_cst_10
  let main_v31 : IVec S169x12 1 := cmpf .olt main_v29 main_v30
  let main_c_11 : IVec S_ 1 := constantI S_ 1 1#1
  let main_v32 : IVec S_ 1 := (fun x v => Host.reduce IntOp.andi x v reducesTo_S169x12_S_d0_1 h_S_) main_v31 main_c_11
  let main_v33 : IVec S_ 1 := andi main_v28 main_v32
  main_v33

def fn {F : FTy → Type} [FloatOps F] (main_arg0 : FVec F S4096x49x384 .f32) (main_arg1 : FVec F S64x49x49 .f32) (main_arg2 : FVec F S1152x384 .f32) (main_arg3 : FVec F S1152 .f32) (main_arg4 : FVec F S384x384 .f32) (main_arg5 : FVec F S384 .f32) (main_arg6 : FVec F S169x12 .f32) (main_arg7 : IVec S49x49 32) : IVec S_ 1 :=
  let main_v0 : FVec F S4096x49x384 .f32 := Host.absf main_arg0
  let main_cst : FVec F S_ .f32 := constant S_ .f32 0x7F800000#32
  let main_v1 : FVec F S4096x49x384 .f32 := broadcastInDim S4096x49x384 ![] bcast_S_S4096x49x384 main_cst
  let main_v2 : IVec S4096x49x384 1 := cmpf .olt main_v0 main_v1
  let main_c : IVec S_ 1 := constantI S_ 1 1#1
  let main_v3 : IVec S_ 1 := (fun x v => Host.reduce IntOp.andi x v reducesTo_S4096x49x384_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S1152x384 .f32 := Host.absf main_arg2
  let main_cst_2 : FVec F S_ .f32 := constant S_ .f32 0x7F800000#32
  let main_v10 : FVec F S1152x384 .f32 := broadcastInDim S1152x384 ![] bcast_S_S1152x384 main_cst_2
  let main_v11 : IVec S1152x384 1 := cmpf .olt main_v9 main_v10
  let main_c_3 : IVec S_ 1 := constantI S_ 1 1#1
  let main_v12 : IVec S_ 1 := (fun x v => Host.reduce IntOp.andi x v reducesTo_S1152x384_S_d0_1 h_S_) main_v11 main_c_3
  let main_v13 : IVec S_ 1 := andi main_v8 main_v12
  let main_v14 : FVec F S1152 .f32 := Host.absf main_arg3
  let main_cst_4 : FVec F S_ .f32 := constant S_ .f32 0x7F800000#32
  let main_v15 : FVec F S1152 .f32 := broadcastInDim S1152 ![] bcast_S_S1152 main_cst_4
  let main_v16 : IVec S1152 1 := cmpf .olt main_v14 main_v15
  fn_part1 (F := F) main_arg4 main_arg5 main_arg6 main_v13 main_v16
-- ==== Kernel.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S1x384 : Shape := ⟨2, ![1, 384]⟩
abbrev S2401 : Shape := ⟨1, ![2401]⟩
abbrev S_ : Shape := ⟨0, ![]⟩
abbrev S2401x1 : Shape := ⟨2, ![2401, 1]⟩
abbrev S2401x12 : Shape := ⟨2, ![2401, 12]⟩
abbrev S49x49x12 : Shape := ⟨3, ![49, 49, 12]⟩
abbrev S12x49x49 : Shape := ⟨3, ![12, 49, 49]⟩
abbrev S32x49x384 : Shape := ⟨3, ![32, 49, 384]⟩
abbrev S1568x384 : Shape := ⟨2, ![1568, 384]⟩
abbrev S4x49x384 : Shape := ⟨3, ![4, 49, 384]⟩
abbrev S4x49x12x32 : Shape := ⟨4, ![4, 49, 12, 32]⟩
abbrev S4x12x49x32 : Shape := ⟨4, ![4, 12, 49, 32]⟩
abbrev S48x49x32 : Shape := ⟨3, ![48, 49, 32]⟩
abbrev S48x49x49 : Shape := ⟨3, ![48, 49, 49]⟩
abbrev S4x12x49x49 : Shape := ⟨4, ![4, 12, 49, 49]⟩
abbrev S4x49x49 : Shape := ⟨3, ![4, 49, 49]⟩
abbrev S1x12x49x49 : Shape := ⟨4, ![1, 12, 49, 49]⟩
abbrev S4x1x49x49 : Shape := ⟨4, ![4, 1, 49, 49]⟩
abbrev S4x12x49 : Shape := ⟨3, ![4, 12, 49]⟩
abbrev S4x12x49x1 : Shape := ⟨4, ![4, 12, 49, 1]⟩

abbrev nBuf : Space → Nat
  | .hbm => 31
  | .vmem => 17
  | .smem => 0
  | _ => 0

abbrev bufTy : (tb : Table) → Fin (tcTables nBuf tb) → BufTy
  | .hbm, ⟨0, _⟩ => ⟨S4096x49x384, .f32⟩
  | .hbm, ⟨1, _⟩ => ⟨S64x49x49, .f32⟩
  | .hbm, ⟨2, _⟩ => ⟨S1152x384, .f32⟩
  | .hbm, ⟨3, _⟩ => ⟨S1152, .f32⟩
  | .hbm, ⟨4, _⟩ => ⟨S384x384, .f32⟩
  | .hbm, ⟨5, _⟩ => ⟨S384, .f32⟩
  | .hbm, ⟨6, _⟩ => ⟨S169x12, .f32⟩
  | .hbm, ⟨7, _⟩ => ⟨S49x49, .i32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S1x384, .f32⟩
  | .hbm, ⟨15, _⟩ => ⟨S1x384, .f32⟩
  | .hbm, ⟨16, _⟩ => ⟨S1x384, .f32⟩
  | .hbm, ⟨17, _⟩ => ⟨S1x384, .f32⟩
  | .hbm, ⟨18, _⟩ => ⟨S2401, .i32⟩
  | .hbm, ⟨19, _⟩ => ⟨S_, .i32⟩
  | .hbm, ⟨20, _⟩ => ⟨S2401, .i32⟩
  | .hbm, ⟨21, _⟩ => ⟨S2401, .i1⟩
  | .hbm, ⟨22, _⟩ => ⟨S_, .i32⟩
  | .hbm, ⟨23, _⟩ => ⟨S2401, .i32⟩
  | .hbm, ⟨24, _⟩ => ⟨S2401, .i32⟩
  | .hbm, ⟨25, _⟩ => ⟨S2401, .i32⟩
  | .hbm, ⟨26, _⟩ => ⟨S2401x1, .i32⟩
  | .hbm, ⟨27, _⟩ => ⟨S2401x12, .f32⟩
  | .hbm, ⟨28, _⟩ => ⟨S49x49x12, .f32⟩
  | .hbm, ⟨29, _⟩ => ⟨S12x49x49, .f32⟩
  | .hbm, ⟨30, _⟩ => ⟨S4096x49x384, .f32⟩
  | .local _ .vmem, ⟨0, _⟩ => ⟨S32x49x384, .f32⟩
  | .local _ .vmem, ⟨1, _⟩ => ⟨S32x49x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S384x384, .f32⟩
  | .local _ .vmem, ⟨9, _⟩ => ⟨S1x384, .f32⟩
  | .local _ .vmem, ⟨10, _⟩ => ⟨S12x49x49, .f32⟩
  | .local _ .vmem, ⟨11, _⟩ => ⟨S64x49x49, .f32⟩
  | .local _ .vmem, ⟨12, _⟩ => ⟨S32x49x384, .f32⟩
  | .local _ .vmem, ⟨13, _⟩ => ⟨S32x49x384, .f32⟩
  | .local _ .vmem, ⟨14, _⟩ => ⟨S32x49x384, .bf16⟩
  | .local _ .vmem, ⟨15, _⟩ => ⟨S32x49x384, .bf16⟩
  | .local _ .vmem, ⟨16, _⟩ => ⟨S32x49x384, .bf16⟩
  | _, _ => ⟨S4096x49x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_31 : BitVec 32 := 0#32
  let c8_i32 : BitVec 32 := 8#32
  let v58 : BitVec 32 := Scalar.addi c0_i32_31 c8_i32
  let c1_i32_32 : BitVec 32 := 1#32
  ⟨c0_i32_31, v58, c1_i32_32⟩
def k0_off1 (k0_t1 : Fin k0_t1_loop.trips) : Fin 3 → Nat :=
  let c0_i32_31 : BitVec 32 := 0#32
  let c1_i32_32 : BitVec 32 := 1#32
  let arg16 : BitVec 32 := Scf.iv c0_i32_31 c1_i32_32 k0_t1
  let c4_i32 : BitVec 32 := 4#32
  let v73 : BitVec 32 := Scalar.muli arg16 c4_i32
  let v74 : Index := Scalar.indexCast v73
  let c0_45 : Index := 0#32
  let c0_46 : Index := 0#32
  ![v74.toNat, 0, 0]
def k0_off2 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v47 : BitVec 1 := Scalar.cmpi .eq c2_i32 c0_i32
  let c1_i32 : BitVec 32 := 1#32
  let v48 : BitVec 32 := Scalar.select v47 c1_i32 c2_i32
  let v49 : BitVec 32 := Scalar.remsi arg0 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c32_i32 : BitVec 32 := 32#32
  let v57 : BitVec 32 := Scalar.muli v56 c32_i32
  let c0_i32_31 : BitVec 32 := 0#32
  let c1_i32_32 : BitVec 32 := 1#32
  let arg16 : BitVec 32 := Scf.iv c0_i32_31 c1_i32_32 k0_t1
  let c4_i32 : BitVec 32 := 4#32
  let v73 : BitVec 32 := Scalar.muli arg16 c4_i32
  let v93 : BitVec 32 := Scalar.addi v57 v73
  let v94 : Index := Scalar.indexCast v93
  let c0_53 : Index := 0#32
  let c0_54 : Index := 0#32
  ![v94.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x49x49 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x49x49 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x49x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1152x384_S384x384_0_0 : S1152x384.Slices ![0, 0] S384x384
  slices_S1152x384_S384x384_384_0 : S1152x384.Slices ![384, 0] S384x384
  slices_S1152x384_S384x384_768_0 : S1152x384.Slices ![768, 0] S384x384
  slices_S1152_S384_0 : S1152.Slices ![0] S384
  slices_S1152_S384_384 : S1152.Slices ![384] S384
  slices_S1152_S384_768 : S1152.Slices ![768] S384
  shapeCasts_S384_S1x384 : S384.ShapeCasts S1x384
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x12_S49x49x12 : S2401x12.ShapeCasts S49x49x12
  transposes_S49x49x12_S12x49x49_2_0_1 : S49x49x12.Transposes [2, 0, 1] S12x49x49
  inb_S32x49x384_S32x49x384_0_0_0 : ∀ a, (![0, 0, 0] : Fin 3 → Nat) a + S32x49x384.size a ≤ S32x49x384.size a
  h_S32x49x384 : 0 < S32x49x384.numel
  shapeCasts_S32x49x384_S1568x384 : S32x49x384.ShapeCasts S1568x384
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  shapeCasts_S384x384_S384x384 : S384x384.ShapeCasts S384x384
  transposes_S384x384_p1_0_S384x384 : S384x384.Transposes [1, 0] S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1568x384 : S1x384.Broadcasts S1568x384
  shapeCasts_S1568x384_S32x49x384 : S1568x384.ShapeCasts S32x49x384
  shapeCasts_S32x49x384_S32x49x384 : S32x49x384.ShapeCasts S32x49x384
  packedbf16_S32x49x384_S32x49x384_0_0_0 : (Rect.unit (s := S32x49x384) ![0, 0, 0] S32x49x384.size inb_S32x49x384_S32x49x384_0_0_0).PackedRows (EltTy.packing .bf16)
  inb_S12x49x49_S12x49x49_0_0_0 : ∀ a, (![0, 0, 0] : Fin 3 → Nat) a + S12x49x49.size a ≤ S12x49x49.size a
  h_S12x49x49 : 0 < S12x49x49.numel
  shapeCasts_S12x49x49_S12x49x49 : S12x49x49.ShapeCasts S12x49x49
  h_S4x49x384 : 0 < S4x49x384.numel
  shapeCasts_S4x49x384_S4x49x12x32 : S4x49x384.ShapeCasts S4x49x12x32
  transposes_S4x49x12x32_p0_2_1_3_S4x12x49x32 : S4x49x12x32.Transposes [0, 2, 1, 3] S4x12x49x32
  shapeCasts_S4x12x49x32_S48x49x32 : S4x12x49x32.ShapeCasts S48x49x32
  shapeCasts_S48x49x49_S4x12x49x49 : S48x49x49.ShapeCasts S4x12x49x49
  h_S4x49x49 : 0 < S4x49x49.numel
  shapeCasts_S12x49x49_S1x12x49x49 : S12x49x49.ShapeCasts S1x12x49x49
  broadcasts_S1x12x49x49_S4x12x49x49 : S1x12x49x49.Broadcasts S4x12x49x49
  shapeCasts_S4x49x49_S4x1x49x49 : S4x49x49.ShapeCasts S4x1x49x49
  broadcasts_S4x1x49x49_S4x12x49x49 : S4x1x49x49.Broadcasts S4x12x49x49
  reduces_S4x12x49x49_S4x12x49 : S4x12x49x49.Reduces [3] S4x12x49
  shapeCasts_S4x12x49_S4x12x49x1 : S4x12x49.ShapeCasts S4x12x49x1
  broadcasts_S4x12x49x1_S4x12x49x49 : S4x12x49x1.Broadcasts S4x12x49x49
  shapeCasts_S4x12x49x49_S48x49x49 : S4x12x49x49.ShapeCasts S48x49x49
  shapeCasts_S48x49x32_S4x12x49x32 : S48x49x32.ShapeCasts S4x12x49x32
  transposes_S4x12x49x32_p0_2_1_3_S4x49x12x32 : S4x12x49x32.Transposes [0, 2, 1, 3] S4x49x12x32
  shapeCasts_S4x49x12x32_S4x49x384 : S4x49x12x32.ShapeCasts S4x49x384
  gather_S169x12_S2401x1_S2401x12_1_0_n_n_0_1_112_wf : GatherDims.WF S169x12 S2401x1 S2401x12 [1] [0] [] [0] [] 1 ![1, 12]
  dot_S1568x384_S384x384_S1568x384_1_0_0_1_n_n_wf : DotDims.WF S1568x384 S384x384 S1568x384 [1] [0] [0] [1] [] []
  dot_S48x49x32_S48x49x32_S48x49x49_2_2_1_1_0_0_wf : DotDims.WF S48x49x32 S48x49x32 S48x49x49 [2] [2] [1] [1] [0] [0]
  dot_S48x49x49_S48x49x32_S48x49x32_2_1_1_2_0_0_wf : DotDims.WF S48x49x49 S48x49x32 S48x49x32 [2] [1] [1] [2] [0] [0]
  hrank0 : 0 < grid0.rank
  k0_t1_ok : k0_t1_loop.OK
  k0_off1_inb : ∀ k0_t1 : Fin k0_t1_loop.trips, ∀ a, (k0_off1 k0_t1) a + S4x49x384.size a ≤ S32x49x384.size a
  k0_off2_inb : ∀ (i : grid0.Coords) (k0_t1 : Fin k0_t1_loop.trips), ∀ a, (k0_off2 i k0_t1) a + S4x49x49.size a ≤ S64x49x49.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x384.size a ≤ S4096x49x384.size a
  hwx0_0 : ∀ i : grid0.Coords, EltTy.bits .f32 = 32 ∨ (Rect.block (s := S4096x49x384) S32x49x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .f32 = 32 ∨ (Rect.block (s := S384x384) S384x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x384.size a ≤ S384x384.size a
  hwx0_7 : ∀ i : grid0.Coords, EltTy.bits .f32 = 32 ∨ (Rect.block (s := S384x384) S384x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12x49x49.size a ≤ S12x49x49.size a
  hwx0_9 : ∀ i : grid0.Coords, EltTy.bits .f32 = 32 ∨ (Rect.block (s := S12x49x49) S12x49x49.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x49x49.size a ≤ S64x49x49.size a
  hwx0_10 : ∀ i : grid0.Coords, EltTy.bits .f32 = 32 ∨ (Rect.block (s := S64x49x49) S64x49x49.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x49x384.size a ≤ S4096x49x384.size a
  hwx0_11 : ∀ i : grid0.Coords, EltTy.bits .f32 = 32 ∨ (Rect.block (s := S4096x49x384) S32x49x384.size (cc0_transform_11 i) (hinb0_11 i)).WholeWords (EltTy.packing .f32)

variable [Facts₀]

def gather_S169x12_S2401x1_S2401x12_1_0_n_n_0_1_112 : GatherDims S169x12 S2401x1 S2401x12 where
  offsetDims := [1]
  collapsedSliceDims := [0]
  operandBatchingDims := []
  startIndicesBatchingDims := []
  startIndexMap := [0]
  indexVectorDim := 1
  sliceSizes := ![1, 12]
  wf := gather_S169x12_S2401x1_S2401x12_1_0_n_n_0_1_112_wf
def dot_S1568x384_S384x384_S1568x384_1_0_0_1_n_n : DotDims S1568x384 S384x384 S1568x384 where
  lhsContracting := [1]
  rhsContracting := [0]
  lhsNonContracting := [0]
  rhsNonContracting := [1]
  lhsBatch := []
  rhsBatch := []
  wf := dot_S1568x384_S384x384_S1568x384_1_0_0_1_n_n_wf
def dot_S48x49x32_S48x49x32_S48x49x49_2_2_1_1_0_0 : DotDims S48x49x32 S48x49x32 S48x49x49 where
  lhsContracting := [2]
  rhsContracting := [2]
  lhsNonContracting := [1]
  rhsNonContracting := [1]
  lhsBatch := [0]
  rhsBatch := [0]
  wf := dot_S48x49x32_S48x49x32_S48x49x49_2_2_1_1_0_0_wf
def dot_S48x49x49_S48x49x32_S48x49x32_2_1_1_2_0_0 : DotDims S48x49x49 S48x49x32 S48x49x32 where
  lhsContracting := [2]
  rhsContracting := [1]
  lhsNonContracting := [1]
  rhsNonContracting := [2]
  lhsBatch := [0]
  rhsBatch := [0]
  wf := dot_S48x49x49_S48x49x32_S48x49x32_2_1_1_2_0_0_wf

abbrev win0_0 : Pipeline.Window sig grid0 :=
  Pipeline.Window.ofSpec (Memref.whole main_arg0) S32x49x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S384x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S12x49x49.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg1) S64x49x49.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S32x49x384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S4096x49x1152 : Shape := ⟨3, ![4096, 49, 1152]⟩
abbrev S1x1x1152 : Shape := ⟨3, ![1, 1, 1152]⟩
abbrev S4096x49x3x12x32 : Shape := ⟨5, ![4096, 49, 3, 12, 32]⟩
abbrev S3x4096x12x49x32 : Shape := ⟨5, ![3, 4096, 12, 49, 32]⟩
abbrev S1x4096x12x49x32 : Shape := ⟨5, ![1, 4096, 12, 49, 32]⟩
abbrev S4096x12x49x32 : Shape := ⟨4, ![4096, 12, 49, 32]⟩
abbrev S4096x12x49x49 : Shape := ⟨4, ![4096, 12, 49, 49]⟩
abbrev S_ : Shape := ⟨0, ![]⟩
abbrev S2401 : Shape := ⟨1, ![2401]⟩
abbrev S2401x1 : Shape := ⟨2, ![2401, 1]⟩
abbrev S2401x12 : Shape := ⟨2, ![2401, 12]⟩
abbrev S49x49x12 : Shape := ⟨3, ![49, 49, 12]⟩
abbrev S12x49x49 : Shape := ⟨3, ![12, 49, 49]⟩
abbrev S1x12x49x49 : Shape := ⟨4, ![1, 12, 49, 49]⟩
abbrev S64x64x12x49x49 : Shape := ⟨5, ![64, 64, 12, 49, 49]⟩
abbrev S1x64x1x49x49 : Shape := ⟨5, ![1, 64, 1, 49, 49]⟩
abbrev S4096x12x49 : Shape := ⟨3, ![4096, 12, 49]⟩
abbrev S4096x12x49x1 : Shape := ⟨4, ![4096, 12, 49, 1]⟩
abbrev S4096x49x12x32 : Shape := ⟨4, ![4096, 49, 12, 32]⟩
abbrev S1x1x384 : Shape := ⟨3, ![1, 1, 384]⟩

abbrev nBuf : Space → Nat
  | .hbm => 65
  | .vmem => 0
  | .smem => 0
  | _ => 0

abbrev bufTy : (tb : Table) → Fin (tcTables nBuf tb) → BufTy
  | .hbm, ⟨0, _⟩ => ⟨S4096x49x384, .f32⟩
  | .hbm, ⟨1, _⟩ => ⟨S64x49x49, .f32⟩
  | .hbm, ⟨2, _⟩ => ⟨S1152x384, .f32⟩
  | .hbm, ⟨3, _⟩ => ⟨S1152, .f32⟩
  | .hbm, ⟨4, _⟩ => ⟨S384x384, .f32⟩
  | .hbm, ⟨5, _⟩ => ⟨S384, .f32⟩
  | .hbm, ⟨6, _⟩ => ⟨S169x12, .f32⟩
  | .hbm, ⟨7, _⟩ => ⟨S49x49, .i32⟩
  | .hbm, ⟨8, _⟩ => ⟨S4096x49x1152, .f32⟩
  | .hbm, ⟨9, _⟩ => ⟨S1x1x1152, .f32⟩
  | .hbm, ⟨10, _⟩ => ⟨S4096x49x1152, .f32⟩
  | .hbm, ⟨11, _⟩ => ⟨S4096x49x1152, .f32⟩
  | .hbm, ⟨12, _⟩ => ⟨S4096x49x3x12x32, .f32⟩
  | .hbm, ⟨13, _⟩ => ⟨S3x4096x12x49x32, .f32⟩
  | .hbm, ⟨14, _⟩ => ⟨S1x4096x12x49x32, .f32⟩
  | .hbm, ⟨15, _⟩ => ⟨S4096x12x49x32, .f32⟩
  | .hbm, ⟨16, _⟩ => ⟨S1x4096x12x49x32, .f32⟩
  | .hbm, ⟨17, _⟩ => ⟨S4096x12x49x32, .f32⟩
  | .hbm, ⟨18, _⟩ => ⟨S1x4096x12x49x32, .f32⟩
  | .hbm, ⟨19, _⟩ => ⟨S4096x12x49x32, .f32⟩
  | .hbm, ⟨20, _⟩ => ⟨S4096x12x49x49, .f32⟩
  | .hbm, ⟨21, _⟩ => ⟨S_, .f32⟩
  | .hbm, ⟨22, _⟩ => ⟨S4096x12x49x49, .f32⟩
  | .hbm, ⟨23, _⟩ => ⟨S4096x12x49x49, .f32⟩
  | .hbm, ⟨24, _⟩ => ⟨S2401, .i32⟩
  | .hbm, ⟨25, _⟩ => ⟨S_, .i32⟩
  | .hbm, ⟨26, _⟩ => ⟨S2401, .i32⟩
  | .hbm, ⟨27, _⟩ => ⟨S2401, .i1⟩
  | .hbm, ⟨28, _⟩ => ⟨S_, .i32⟩
  | .hbm, ⟨29, _⟩ => ⟨S2401, .i32⟩
  | .hbm, ⟨30, _⟩ => ⟨S2401, .i32⟩
  | .hbm, ⟨31, _⟩ => ⟨S2401, .i32⟩
  | .hbm, ⟨32, _⟩ => ⟨S2401x1, .i32⟩
  | .hbm, ⟨33, _⟩ => ⟨S2401x12, .f32⟩
  | .hbm, ⟨34, _⟩ => ⟨S49x49x12, .f32⟩
  | .hbm, ⟨35, _⟩ => ⟨S12x49x49, .f32⟩
  | .hbm, ⟨36, _⟩ => ⟨S1x12x49x49, .f32⟩
  | .hbm, ⟨37, _⟩ => ⟨S4096x12x49x49, .f32⟩
  | .hbm, ⟨38, _⟩ => ⟨S4096x12x49x49, .f32⟩
  | .hbm, ⟨39, _⟩ => ⟨S64x64x12x49x49, .f32⟩
  | .hbm, ⟨40, _⟩ => ⟨S1x64x1x49x49, .f32⟩
  | .hbm, ⟨41, _⟩ => ⟨S64x64x12x49x49, .f32⟩
  | .hbm, ⟨42, _⟩ => ⟨S64x64x12x49x49, .f32⟩
  | .hbm, ⟨43, _⟩ => ⟨S4096x12x49x49, .f32⟩
  | .hbm, ⟨44, _⟩ => ⟨S_, .f32⟩
  | .hbm, ⟨45, _⟩ => ⟨S4096x12x49, .f32⟩
  | .hbm, ⟨46, _⟩ => ⟨S_, .f32⟩
  | .hbm, ⟨47, _⟩ => ⟨S4096x12x49, .f32⟩
  | .hbm, ⟨48, _⟩ => ⟨S4096x12x49, .f32⟩
  | .hbm, ⟨49, _⟩ => ⟨S4096x12x49x1, .f32⟩
  | .hbm, ⟨50, _⟩ => ⟨S4096x12x49x49, .f32⟩
  | .hbm, ⟨51, _⟩ => ⟨S4096x12x49x49, .f32⟩
  | .hbm, ⟨52, _⟩ => ⟨S4096x12x49x49, .f32⟩
  | .hbm, ⟨53, _⟩ => ⟨S_, .f32⟩
  | .hbm, ⟨54, _⟩ => ⟨S4096x12x49, .f32⟩
  | .hbm, ⟨55, _⟩ => ⟨S4096x12x49x1, .f32⟩
  | .hbm, ⟨56, _⟩ => ⟨S4096x12x49x49, .f32⟩
  | .hbm, ⟨57, _⟩ => ⟨S4096x12x49x49, .f32⟩
  | .hbm, ⟨58, _⟩ => ⟨S4096x12x49x32, .f32⟩
  | .hbm, ⟨59, _⟩ => ⟨S4096x49x12x32, .f32⟩
  | .hbm, ⟨60, _⟩ => ⟨S4096x49x384, .f32⟩
  | .hbm, ⟨61, _⟩ => ⟨S4096x49x384, .f32⟩
  | .hbm, ⟨62, _⟩ => ⟨S1x1x384, .f32⟩
  | .hbm, ⟨63, _⟩ => ⟨S4096x49x384, .f32⟩
  | .hbm, ⟨64, _⟩ => ⟨S4096x49x384, .f32⟩
  | _, _ => ⟨S4096x49x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  bcast_S1152_S1x1x1152_2 : S1152.BroadcastsInDim S1x1x1152 (![2] : Fin 1 → Fin S1x1x1152.rank)
  bcast_S1x1x1152_S4096x49x1152_0_1_2 : S1x1x1152.BroadcastsInDim S4096x49x1152 (![0, 1, 2] : Fin 3 → Fin S4096x49x1152.rank)
  shapeCasts_S4096x49x1152_S4096x49x3x12x32 : S4096x49x1152.ShapeCasts S4096x49x3x12x32
  transposes_S4096x49x3x12x32_S3x4096x12x49x32_2_0_3_1_4 : S4096x49x3x12x32.Transposes [2, 0, 3, 1, 4] S3x4096x12x49x32
  slices_S3x4096x12x49x32_S1x4096x12x49x32_0_0_0_0_0 : S3x4096x12x49x32.Slices ![0, 0, 0, 0, 0] S1x4096x12x49x32
  shapeCasts_S1x4096x12x49x32_S4096x12x49x32 : S1x4096x12x49x32.ShapeCasts S4096x12x49x32
  slices_S3x4096x12x49x32_S1x4096x12x49x32_1_0_0_0_0 : S3x4096x12x49x32.Slices ![1, 0, 0, 0, 0] S1x4096x12x49x32
  slices_S3x4096x12x49x32_S1x4096x12x49x32_2_0_0_0_0 : S3x4096x12x49x32.Slices ![2, 0, 0, 0, 0] S1x4096x12x49x32
  bcast_S_S4096x12x49x49 : S_.BroadcastsInDim S4096x12x49x49 (![] : Fin 0 → Fin S4096x12x49x49.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x12_S49x49x12 : S2401x12.ShapeCasts S49x49x12
  transposes_S49x49x12_S12x49x49_2_0_1 : S49x49x12.Transposes [2, 0, 1] S12x49x49
  bcast_S12x49x49_S1x12x49x49_1_2_3 : S12x49x49.BroadcastsInDim S1x12x49x49 (![1, 2, 3] : Fin 3 → Fin S1x12x49x49.rank)
  bcast_S1x12x49x49_S4096x12x49x49_0_1_2_3 : S1x12x49x49.BroadcastsInDim S4096x12x49x49 (![0, 1, 2, 3] : Fin 4 → Fin S4096x12x49x49.rank)
  shapeCasts_S4096x12x49x49_S64x64x12x49x49 : S4096x12x49x49.ShapeCasts S64x64x12x49x49
  bcast_S64x49x49_S1x64x1x49x49_1_3_4 : S64x49x49.BroadcastsInDim S1x64x1x49x49 (![1, 3, 4] : Fin 3 → Fin S1x64x1x49x49.rank)
  bcast_S1x64x1x49x49_S64x64x12x49x49_0_1_2_3_4 : S1x64x1x49x49.BroadcastsInDim S64x64x12x49x49 (![0, 1, 2, 3, 4] : Fin 5 → Fin S64x64x12x49x49.rank)
  shapeCasts_S64x64x12x49x49_S4096x12x49x49 : S64x64x12x49x49.ShapeCasts S4096x12x49x49
  reducesTo_S4096x12x49x49_S4096x12x49_d3 : S4096x12x49x49.ReducesTo [3] S4096x12x49
  h_S_ : 0 < S_.numel
  bcast_S_S4096x12x49 : S_.BroadcastsInDim S4096x12x49 (![] : Fin 0 → Fin S4096x12x49.rank)
  bcast_S4096x12x49_S4096x12x49x1_0_1_2 : S4096x12x49.BroadcastsInDim S4096x12x49x1 (![0, 1, 2] : Fin 3 → Fin S4096x12x49x1.rank)
  bcast_S4096x12x49x1_S4096x12x49x49_0_1_2_3 : S4096x12x49x1.BroadcastsInDim S4096x12x49x49 (![0, 1, 2, 3] : Fin 4 → Fin S4096x12x49x49.rank)
  transposes_S4096x12x49x32_S4096x49x12x32_0_2_1_3 : S4096x12x49x32.Transposes [0, 2, 1, 3] S4096x49x12x32
  shapeCasts_S4096x49x12x32_S4096x49x384 : S4096x49x12x32.ShapeCasts S4096x49x384
  bcast_S384_S1x1x384_2 : S384.BroadcastsInDim S1x1x384 (![2] : Fin 1 → Fin S1x1x384.rank)
  bcast_S1x1x384_S4096x49x384_0_1_2 : S1x1x384.BroadcastsInDim S4096x49x384 (![0, 1, 2] : Fin 3 → Fin S4096x49x384.rank)
  dot_S4096x49x384_S1152x384_S4096x49x1152_2_1_01_0_n_n_wf : DotDims.WF S4096x49x384 S1152x384 S4096x49x1152 [2] [1] [0, 1] [0] [] []
  dot_S4096x12x49x32_S4096x12x49x32_S4096x12x49x49_3_3_2_2_01_01_wf : DotDims.WF S4096x12x49x32 S4096x12x49x32 S4096x12x49x49 [3] [3] [2] [2] [0, 1] [0, 1]
  gather_S169x12_S2401x1_S2401x12_1_0_n_n_0_1_112_wf : GatherDims.WF S169x12 S2401x1 S2401x12 [1] [0] [] [0] [] 1 ![1, 12]
  dot_S4096x12x49x49_S4096x12x49x32_S4096x12x49x32_3_2_2_3_01_01_wf : DotDims.WF S4096x12x49x49 S4096x12x49x32 S4096x12x49x32 [3] [2] [2] [3] [0, 1] [0, 1]
  dot_S4096x49x384_S384x384_S4096x49x384_2_1_01_0_n_n_wf : DotDims.WF S4096x49x384 S384x384 S4096x49x384 [2] [1] [0, 1] [0] [] []

variable [Facts₀]

def dot_S4096x49x384_S1152x384_S4096x49x1152_2_1_01_0_n_n : DotDims S4096x49x384 S1152x384 S4096x49x1152 where
  lhsContracting := [2]
  rhsContracting := [1]
  lhsNonContracting := [0, 1]
  rhsNonContracting := [0]
  lhsBatch := []
  rhsBatch := []
  wf := dot_S4096x49x384_S1152x384_S4096x49x1152_2_1_01_0_n_n_wf
def dot_S4096x12x49x32_S4096x12x49x32_S4096x12x49x49_3_3_2_2_01_01 : DotDims S4096x12x49x32 S4096x12x49x32 S4096x12x49x49 where
  lhsContracting := [3]
  rhsContracting := [3]
  lhsNonContracting := [2]
  rhsNonContracting := [2]
  lhsBatch := [0, 1]
  rhsBatch := [0, 1]
  wf := dot_S4096x12x49x32_S4096x12x49x32_S4096x12x49x49_3_3_2_2_01_01_wf
def gather_S169x12_S2401x1_S2401x12_1_0_n_n_0_1_112 : GatherDims S169x12 S2401x1 S2401x12 where
  offsetDims := [1]
  collapsedSliceDims := [0]
  operandBatchingDims := []
  startIndicesBatchingDims := []
  startIndexMap := [0]
  indexVectorDim := 1
  sliceSizes := ![1, 12]
  wf := gather_S169x12_S2401x1_S2401x12_1_0_n_n_0_1_112_wf
def dot_S4096x12x49x49_S4096x12x49x32_S4096x12x49x32_3_2_2_3_01_01 : DotDims S4096x12x49x49 S4096x12x49x32 S4096x12x49x32 where
  lhsContracting := [3]
  rhsContracting := [2]
  lhsNonContracting := [2]
  rhsNonContracting := [3]
  lhsBatch := [0, 1]
  rhsBatch := [0, 1]
  wf := dot_S4096x12x49x49_S4096x12x49x32_S4096x12x49x32_3_2_2_3_01_01_wf
def dot_S4096x49x384_S384x384_S4096x49x384_2_1_01_0_n_n : DotDims S4096x49x384 S384x384 S4096x49x384 where
  lhsContracting := [2]
  rhsContracting := [1]
  lhsNonContracting := [0, 1]
  rhsNonContracting := [0]
  lhsBatch := []
  rhsBatch := []
  wf := dot_S4096x49x384_S384x384_S4096x49x384_2_1_01_0_n_n_wf

class Facts : Prop extends Facts₀ where

variable [Facts]
-- ==== Proof.Pieces.lean ====
/-
  What the kernel's body leaves in the output block, as pieces.  The body fills three scratch slabs with the query, key
  and value projections of the 32 windows of the block, then for each of 8 trips stores the attention output of 4
  windows into rows 4k … 4k+3 of the output buffer, reads the whole buffer back and stores its output projection over it.
  So the block is the last store's payload, of the buffer as the 8 trips left it; and the buffer as the trips left it is
  ONE function of the block index wherever each trip's payload is that function on the trip's rows.
-/
import proofs.«136125_j4853313044771_2_alg».proof.Proof.KernelIdealFrame
import Idealize.ShloMosaic.Lib.Pipeline.Value

set_option maxRecDepth 16384
set_option maxHeartbeats 1000000

noncomputable section

namespace Cert.KernelIdeal.Pieces

open Cert.KernelIdeal Cert.KernelIdeal.Gen Cert.KernelIdeal.GenP
open Idealize.ShloMosaic Idealize.ShloMosaic.TcCoe Idealize.ShloMosaic.Tactic Idealize.SL Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A whole memref holding the contents that read X, loaded whole, gives X. -/
theorem load_whole {κ : Kind} {sp : Space} {S : Shape} {e : EltTy} (M : Memref sig κ sp S e) (h : M.IsWhole)
    (X : S.Idx → Elt F e) {off : Fin S.rank → Nat} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

/-- A box of a buffer that one whole store filled reads the store's payload at the box's indices. -/
theorem load_of_whole_store {κ : Kind} {sp : Space} {S : Shape} {e : EltTy} (M : Memref sig κ sp S e)
    (w : S.Idx → Elt F e) {off : Fin S.rank → Nat} (hz : off = fun _ => 0) (inb : ∀ a, off a + S.size a ≤ S.size a)
    (B : LoadRect S) :
    View.readAt (Elt F) M.view B (M.view.writes (Elt F) M.view.junk [⟨Rect.unit off S.size inb, w⟩]) = fun j => w (B.idx j) := by
  rw [View.readAt_writes_junk_eq_canon, View.canon_unit_zero hz]

/-! ## One trip's piece -/

/-- Trip k stores, at rows 4k … 4k+3 of the output buffer, the attention payload of the three scratch slabs' rows
    4k … 4k+3 and the mask rows the trip reads. -/
theorem trip_piece (𝒱 : Variants) (c : Dev nD) (bd : Option 𝒱.V) (i : grid0.Coords) (arg1 : Memref sig .tc .vmem S32x49x384 .f32) (harg1 : arg1.IsWhole) (arg2 : Memref sig .tc .vmem S384x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S384x384 .f32) (harg8 : arg8.IsWhole) (arg9 : Memref sig .tc .vmem S1x384 .f32) (harg9 : arg9.IsWhole) (arg10 : Memref sig .tc .vmem S12x49x49 .f32) (harg10 : arg10.IsWhole) (arg11 : Memref sig .tc .vmem S64x49x49 .f32) (harg11 : arg11.IsWhole) (arg12 : Memref sig .tc .vmem S32x49x384 .f32) (harg12 : arg12.IsWhole) (arg13 : Memref sig .tc .vmem S32x49x384 .bf16) (harg13 : arg13.IsWhole) (arg14 : Memref sig .tc .vmem S32x49x384 .bf16) (harg14 : arg14.IsWhole) (arg15 : Memref sig .tc .vmem S32x49x384 .bf16) (harg15 : arg15.IsWhole) (arg0 : BitVec 32) (v29 : FVec F S1568x384 .f32) (v36 : FVec F S32x49x384 .bf16) (v45 : Vec F S12x49x49 .f32) (v57 : BitVec 32) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v29 v36 v45 v57 X_arg11 X_arg13 X_arg14 X_arg15 k
      = [(⟨Rect.unit (s := S32x49x384) (k0_off1 k) ![4, 49, 384] (k0_off1_inb k),
          k0_pay2 (k0_pay9 v45)
            (View.readAt (Elt F) arg13.view (Rect.unit (s := S32x49x384) (k0_off1 k) S4x49x384.size (k0_off1_inb k)).toLoadRect X_arg13)
            (View.readAt (Elt F) arg14.view (Rect.unit (s := S32x49x384) (k0_off1 k) S4x49x384.size (k0_off1_inb k)).toLoadRect X_arg14)
            (View.readAt (Elt F) arg15.view (Rect.unit (s := S32x49x384) (k0_off1 k) S4x49x384.size (k0_off1_inb k)).toLoadRect X_arg15)
            (View.readAt (Elt F) arg11.view (Rect.unit (s := S64x49x49) (k0_off2 i k) S4x49x49.size (k0_off2_inb i k)).toLoadRect X_arg11)⟩ :
          View.Piece (Elt F) S32x49x384 .f32)] := by
  unfold tripL_k0_t1 trip_k0_t1
  dsimp only
  sl_unfold_run_names
  rfl

/-! ## The trips' pieces are one function -/

/-- If every trip's payload is G on the trip's rows, every piece of the trips before n is a block of G. -/
theorem pieces_before (𝒱 : Variants) (c : Dev nD) (bd : Option 𝒱.V) (i : grid0.Coords) (arg1 : Memref sig .tc .vmem S32x49x384 .f32) (harg1 : arg1.IsWhole) (arg2 : Memref sig .tc .vmem S384x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S384x384 .f32) (harg8 : arg8.IsWhole) (arg9 : Memref sig .tc .vmem S1x384 .f32) (harg9 : arg9.IsWhole) (arg10 : Memref sig .tc .vmem S12x49x49 .f32) (harg10 : arg10.IsWhole) (arg11 : Memref sig .tc .vmem S64x49x49 .f32) (harg11 : arg11.IsWhole) (arg12 : Memref sig .tc .vmem S32x49x384 .f32) (harg12 : arg12.IsWhole) (arg13 : Memref sig .tc .vmem S32x49x384 .bf16) (harg13 : arg13.IsWhole) (arg14 : Memref sig .tc .vmem S32x49x384 .bf16) (harg14 : arg14.IsWhole) (arg15 : Memref sig .tc .vmem S32x49x384 .bf16) (harg15 : arg15.IsWhole) (arg0 : BitVec 32) (v29 : FVec F S1568x384 .f32) (v36 : FVec F S32x49x384 .bf16) (v45 : Vec F S12x49x49 .f32) (v57 : BitVec 32) (X_arg11 : BufTy.Contents (Elt F) arg11.view.ty) (X_arg13 : BufTy.Contents (Elt F) arg13.view.ty) (X_arg14 : BufTy.Contents (Elt F) arg14.view.ty) (X_arg15 : BufTy.Contents (Elt F) arg15.view.ty)
    (G : S32x49x384.Idx → Elt F .f32)
    (hG : ∀ (k : Fin k0_t1_loop.trips) (x : S4x49x384.Idx),
      k0_pay2 (k0_pay9 v45)
          (View.readAt (Elt F) arg13.view (Rect.unit (s := S32x49x384) (k0_off1 k) S4x49x384.size (k0_off1_inb k)).toLoadRect X_arg13)
          (View.readAt (Elt F) arg14.view (Rect.unit (s := S32x49x384) (k0_off1 k) S4x49x384.size (k0_off1_inb k)).toLoadRect X_arg14)
          (View.readAt (Elt F) arg15.view (Rect.unit (s := S32x49x384) (k0_off1 k) S4x49x384.size (k0_off1_inb k)).toLoadRect X_arg15)
          (View.readAt (Elt F) arg11.view (Rect.unit (s := S64x49x49) (k0_off2 i k) S4x49x49.size (k0_off2_inb i k)).toLoadRect X_arg11) x
        = G ((Rect.unit (s := S32x49x384) (k0_off1 k) ![4, 49, 384] (k0_off1_inb k)).emb x)) :
    ∀ n : ℕ, n ≤ k0_t1_loop.trips →
      ∀ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v29 v36 v45 v57 X_arg11 X_arg13 X_arg14 X_arg15 n, ∀ x : p.1.shape.Idx, p.2 x = G (p.1.emb x)
  | 0, _ => fun p hp => absurd hp (by rw [pb_k0_t1]; exact List.not_mem_nil)
  | n + 1, hn => fun p hp => by
    have hlt : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v29 v36 v45 v57 X_arg11 X_arg13 X_arg14 X_arg15 ⟨n, hlt⟩
    rw [show (⟨n, hlt⟩ : Fin k0_t1_loop.trips).val + 1 = n + 1 from rfl, trip_piece] at e
    rw [e] at hp
    rcases List.mem_append.mp hp with h1 | h2
    · obtain rfl := List.mem_singleton.mp h1
      exact hG ⟨n, hlt⟩
    · exact pieces_before 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v29 v36 v45 v57 X_arg11 X_arg13 X_arg14 X_arg15 G hG n (Nat.le_of_lt hlt) p h2

end Cert.KernelIdeal.Pieces

end
-- ==== Proof.LibRowCast.lean ====
/-
  General reads at an index of a reshape that splits the row axis of an [a·b, c] array into [a, b, c], or merges
  it back: row p·b + q of the flat array is row q of slab p.
-/
import Idealize.ShloMosaic.Lib.ValueIdx
import Idealize.ShloMosaic.Lib.ValueLayout
import Idealize.ShloMosaic.Lib.Pipeline.Value

noncomputable section

namespace Cert.RowCast

open Idealize.ShloMosaic Idealize.ShloMosaic.ValueIdx

variable {α : Type}

/-- Row q of slab p, among a slabs of b rows, lies below a·b. -/
theorem row_lt {n a b : ℕ} (hn : n = a * b) (p : Fin a) (q : Fin b) : p.val * b + q.val < n := by
  subst hn
  calc p.val * b + q.val < p.val * b + b := Nat.add_lt_add_left q.isLt _
    _ = (p.val + 1) * b := (Nat.succ_mul _ _).symm
    _ ≤ a * b := Nat.mul_le_mul_right _ p.isLt

/-- An [n, c] array with n = a·b cast to [a, b, c] reads, at (p, q, r), the operand at (p·b + q, r). -/
theorem shapeCast_split_apply {n a b c : ℕ} (hn : n = a * b) (v : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ v h (ix3 p q r) = v (ix2 ⟨p.val * b + q.val, row_lt hn p q⟩ r) :=
  shapeCast_apply v h _ _ (by
    rw [Shape.rowMajor_val_three, Shape.rowMajor_val_two]
    rfl)

/-- An [a, b, c] array cast to [n, c] with n = a·b reads, at (p·b + q, r), the operand at (p, q, r). -/
theorem shapeCast_merge_apply {n a b c : ℕ} (hn : n = a * b) (v : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ v h (ix2 ⟨p.val * b + q.val, row_lt hn p q⟩ r) = v (ix3 p q r) :=
  shapeCast_apply v h _ _ (by
    rw [Shape.rowMajor_val_three, Shape.rowMajor_val_two]
    rfl)

end Cert.RowCast

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.PayLinear.lean ====
/-
  The linear payloads of the kernel at the extended reals, read at an index.  A change of format is the identity there and
  a matrix product accumulated into the zero splat is the plain sum, so each projection payload is, at window slab w, token
  n and channel c, the sum over the input channels of the input at (w, n, ·) times the weight's row c, plus the bias at c:
  row w·49 + n of the flat [1568, 384] array is row n of slab w, and the product's right operand is the transpose of the
  weight.
-/
import proofs.«136125_j4853313044771_2_alg».proof.Proof.Gen.KernelIdeal.Skeleton
import proofs.«136125_j4853313044771_2_alg».proof.Proof.LibRowCast
import proofs.«136125_j4853313044771_2_alg».proof.Proof.LibRowOps

noncomputable section

open scoped BigOperators

namespace Cert.KernelIdeal.PayValue

open Cert.KernelIdeal Cert.KernelIdeal.Gen Idealize.ShloMosaic Idealize.ShloMosaic.ValueIdx

/-- The projection's dimension numbers are the plain 1568×384 by 384×384 product's. -/
theorem dot_proj_eq_plain : dot_S1568x384_S384x384_S1568x384_1_0_0_1_n_n = DotDims.plain 1568 384 384 :=
  Cert.RowLib.dotDims_eq_plain _ rfl rfl rfl rfl rfl rfl

/-- A flat [1568, 384] array times the transpose of a [384, 384] weight, accumulated into zero: at (r, c) the sum over e
    of the array at (r, e) times the weight at (c, e). -/
theorem proj_apply (X : FVec Ideal S1568x384 .bf16) (W : FVec Ideal S384x384 .bf16) (r : Fin 1568) (c : Fin 384) :
    matmul dot_S1568x384_S384x384_S1568x384_1_0_0_1_n_n none X
        (transpose S384x384 [1, 0] W transposes_S384x384_p1_0_S384x384) (constant S1568x384 .f32 0x00000000#32) (ix2 r c)
      = ∑ e : Fin 384, X (ix2 r e) * W (ix2 c e) := by
  rw [dot_proj_eq_plain]
  refine (Cert.RowLib.matmul_plain_zero_ix2 none X _ r c).trans ?_
  refine Finset.sum_congr rfl fun e _ => ?_
  exact congrArg (X (ix2 r e) * ·) (transpose_ix2_apply W transposes_S384x384_p1_0_S384x384 e c)

/-- The one-row bias laid along every row of the flat array reads the bias at the column. -/
theorem bias_apply (b : Vec Ideal S1x384 .f32) (r : Fin 1568) (c : Fin 384) :
    broadcastTo S1568x384 (shapeCast S1x384 b shapeCasts_S1x384_S1x384) broadcasts_S1x384_S1568x384 (ix2 r c)
      = b (ix2 (0 : Fin 1) c) := by
  refine (broadcastTo_1b_ab_apply _ broadcasts_S1x384_S1568x384 r c).trans ?_
  exact congrFun (shapeCast_self b shapeCasts_S1x384_S1x384) _

/-- The slabs flattened and changed of format read, at row w·49 + n, the slab w at token n. -/
theorem pay3_apply (v0 : Vec Ideal S32x49x384 .f32) (w : Fin 32) (n : Fin 49) (e : Fin 384) :
    k0_pay3 (F := Ideal) v0 (ix2 ⟨w.val * 49 + n.val, Cert.RowCast.row_lt (by norm_num) w n⟩ e) = v0 (ix3 w n e) := by
  unfold k0_pay3
  exact Cert.RowCast.shapeCast_merge_apply (n := 1568) (by norm_num) v0 shapeCasts_S32x49x384_S1568x384 w n e

/-- The shared shape of the three input projections, on the flat array. -/
theorem lin_flat_apply (v0 : Vec Ideal S32x49x384 .f32) (W : Vec Ideal S384x384 .f32) (b : Vec Ideal S1x384 .f32)
    (w : Fin 32) (n : Fin 49) (c : Fin 384) :
    addf (matmul dot_S1568x384_S384x384_S1568x384_1_0_0_1_n_n none (k0_pay3 (F := Ideal) v0)
          (transpose S384x384 [1, 0] (truncf .bf16 (shapeCast S384x384 W shapeCasts_S384x384_S384x384) bitsLt_bf16_f32)
            transposes_S384x384_p1_0_S384x384) (constant S1568x384 .f32 0x00000000#32))
        (broadcastTo S1568x384 (shapeCast S1x384 b shapeCasts_S1x384_S1x384) broadcasts_S1x384_S1568x384)
        (ix2 ⟨w.val * 49 + n.val, Cert.RowCast.row_lt (by norm_num) w n⟩ c)
      = (∑ e : Fin 384, v0 (ix3 w n e) * W (ix2 c e)) + b (ix2 (0 : Fin 1) c) := by
  refine (addf_apply _ _ _).trans ?_
  refine congrArg₂ (· + ·) ((proj_apply _ _ _ c).trans ?_) (bias_apply b _ c)
  refine Finset.sum_congr rfl fun e _ => ?_
  rw [pay3_apply]
  exact congrArg (v0 (ix3 w n e) * ·) (congrFun (shapeCast_self W shapeCasts_S384x384_S384x384) _)

theorem pay5_apply (v0 : Vec Ideal S32x49x384 .f32) (v3 : Vec Ideal S384x384 .f32) (v14 : Vec Ideal S1x384 .f32)
    (w : Fin 32) (n : Fin 49) (c : Fin 384) :
    k0_pay5 (F := Ideal) v0 v3 v14 (ix3 w n c)
      = (∑ e : Fin 384, v0 (ix3 w n e) * v3 (ix2 c e)) + v14 (ix2 (0 : Fin 1) c) := by
  unfold k0_pay5
  refine (congrFun (shapeCast_self _ shapeCasts_S32x49x384_S32x49x384) _).trans ?_
  refine (truncf_apply _ bitsLt_bf16_f32 _).trans ?_
  refine (Cert.RowCast.shapeCast_split_apply (n := 1568) (by norm_num) _ shapeCasts_S1568x384_S32x49x384 w n c).trans ?_
  exact lin_flat_apply v0 v3 v14 w n c

theorem pay6_apply (v0 : Vec Ideal S32x49x384 .f32) (v6 : Vec Ideal S384x384 .f32) (v20 : Vec Ideal S1x384 .f32)
    (w : Fin 32) (n : Fin 49) (c : Fin 384) :
    k0_pay6 (F := Ideal) v0 v6 v20 (ix3 w n c)
      = (∑ e : Fin 384, v0 (ix3 w n e) * v6 (ix2 c e)) + v20 (ix2 (0 : Fin 1) c) := by
  unfold k0_pay6
  refine (truncf_apply _ bitsLt_bf16_f32 _).trans ?_
  refine (Cert.RowCast.shapeCast_split_apply (n := 1568) (by norm_num) _ shapeCasts_S1568x384_S32x49x384 w n c).trans ?_
  exact lin_flat_apply v0 v6 v20 w n c

theorem pay8_pay4_apply (v0 : Vec Ideal S32x49x384 .f32) (v9 : Vec Ideal S384x384 .f32) (v26 : Vec Ideal S1x384 .f32)
    (w : Fin 32) (n : Fin 49) (c : Fin 384) :
    k0_pay8 (F := Ideal) (k0_pay4 v0 v9 v26) (ix3 w n c)
      = (∑ e : Fin 384, v0 (ix3 w n e) * v9 (ix2 c e)) + v26 (ix2 (0 : Fin 1) c) := by
  unfold k0_pay8 k0_pay4
  refine (congrFun (shapeCast_self _ shapeCasts_S32x49x384_S32x49x384) _).trans ?_
  refine (truncf_apply _ bitsLt_bf16_f32 _).trans ?_
  refine (Cert.RowCast.shapeCast_split_apply (n := 1568) (by norm_num) _ shapeCasts_S1568x384_S32x49x384 w n c).trans ?_
  exact lin_flat_apply v0 v9 v26 w n c

theorem pay7_eq (v36 : FVec Ideal S32x49x384 .bf16) : k0_pay7 (F := Ideal) v36 = v36 := by
  unfold k0_pay7
  exact shapeCast_self v36 shapeCasts_S32x49x384_S32x49x384

theorem pay1_pay10_apply (v59 : Vec Ideal S32x49x384 .f32) (v63 : Vec Ideal S384x384 .f32) (v67 : Vec Ideal S1x384 .f32)
    (w : Fin 32) (n : Fin 49) (o : Fin 384) :
    k0_pay1 (F := Ideal) (k0_pay10 v59 v63) v67 (ix3 w n o)
      = (∑ c : Fin 384, v59 (ix3 w n c) * v63 (ix2 o c)) + v67 (ix2 (0 : Fin 1) o) := by
  unfold k0_pay1 k0_pay10
  refine (Cert.RowCast.shapeCast_split_apply (n := 1568) (by norm_num) _ shapeCasts_S1568x384_S32x49x384 w n o).trans ?_
  refine (addf_apply _ _ _).trans ?_
  refine congrArg₂ (· + ·) ((proj_apply _ _ _ o).trans ?_) (bias_apply v67 _ o)
  refine Finset.sum_congr rfl fun c _ => ?_
  refine congrArg (· * v63 (ix2 o c)) ?_
  refine (truncf_apply _ bitsLt_bf16_f32 _).trans ?_
  refine (Cert.RowCast.shapeCast_merge_apply (n := 1568) (by norm_num) _ shapeCasts_S32x49x384_S1568x384 w n c).trans ?_
  exact congrFun (shapeCast_self v59 shapeCasts_S32x49x384_S32x49x384) _

end Cert.KernelIdeal.PayValue

end
-- ==== Proof.Spec.lean ====
/-
  Window attention with a relative-position bias and a window mask, as one function of the argument arrays on the
  extended reals, index by index.  For window b, head h and tokens n, m of the window:

    lin(b, n, o)      = Σ_e x(b, n, e) · W(o, e) + β(o)                    the fused query/key/value projection, o < 1152
    q, k, v (b,n,h,d) = lin(b, n, s·384 + h·32 + d)  for s = 0, 1, 2
    score(b, h, n, m) = (Σ_d q(b,n,h,d) · k(b,m,h,d)) · σ + bias(h, n, m) + mask(b mod 64, n, m)
    prob(b, h, n, m)  = exp(score − max_m' score) / Σ_m'' exp(score(b,h,n,m'') − max_m' score)
    att(b, n, h·32+d) = Σ_m prob(b, h, n, m) · v(b, m, h, d)
    out(b, n, o)      = Σ_c att(b, n, c) · P(o, c) + π(o)

  σ is the binary32 number nearest 32^(-1/2), the same word in both programs; the row maximum starts from the
  word of −∞, the row sum from 0.  Nothing here mentions a program.
-/
import Idealize.ShloMosaic.PureOps.Ideal
import Idealize.ShloMosaic.Lib.ValueIdx

noncomputable section

open scoped BigOperators

namespace Cert.WindowAttn

open Idealize.ShloMosaic Idealize.ShloMosaic.ValueIdx

/-- Column h·32 + d of the 384 channels: coordinate d of head h. -/
def hcol (h : Fin 12) (d : Fin 32) : Fin 384 := ⟨h.val * 32 + d.val, by have := h.isLt; have := d.isLt; omega⟩

/-- Row s·384 + c of the fused projection: channel c of the query (s = 0), key (1) or value (2) part. -/
def qrow (s : Fin 3) (c : Fin 384) : Fin 1152 := ⟨s.val * 384 + c.val, by have := s.isLt; have := c.isLt; omega⟩

/-- The head of channel c, and its coordinate inside the head. -/
def headOf (c : Fin 384) : Fin 12 := ⟨c.val / 32, by have := c.isLt; omega⟩
def coordOf (c : Fin 384) : Fin 32 := ⟨c.val % 32, Nat.mod_lt _ (by decide)⟩

theorem hcol_headOf_coordOf (c : Fin 384) : hcol (headOf c) (coordOf c) = c :=
  Fin.ext (by show c.val / 32 * 32 + c.val % 32 = c.val; omega)

/-- Window b's slot in the cycle of 64 masks. -/
def cyc (b : Fin 4096) : Fin 64 := ⟨b.val % 64, Nat.mod_lt _ (by decide)⟩

/-- The scale σ and the word of −∞ the row maximum starts from. -/
def σ : EReal := Ideal.ofBits .f32 0x3E3504F3#32
def negInf : EReal := Ideal.ofBits .f32 0xFF800000#32

section
variable (x : (⟨3, ![4096, 49, 384]⟩ : Shape).Idx → EReal) (W : (⟨2, ![1152, 384]⟩ : Shape).Idx → EReal)
  (β : (⟨1, ![1152]⟩ : Shape).Idx → EReal)

/-- The fused projection at window b, token n, output row o. -/
def lin (b : Fin 4096) (n : Fin 49) (o : Fin 1152) : EReal :=
  (∑ e : Fin 384, x (ix3 b n e) * W (ix2 o e)) + β (ix1 o)

variable (bias : (⟨3, ![12, 49, 49]⟩ : Shape).Idx → EReal) (mask : (⟨3, ![64, 49, 49]⟩ : Shape).Idx → EReal)

/-- The attention score of query token n against key token m in head h of window b. -/
def score (b : Fin 4096) (h : Fin 12) (n m : Fin 49) : EReal :=
  (∑ d : Fin 32, lin x W β b n (qrow 0 (hcol h d)) * lin x W β b m (qrow 1 (hcol h d))) * σ
    + bias (ix3 h n m) + mask (ix3 (cyc b) n m)

/-- The row maximum over the key tokens. -/
def rowMax (b : Fin 4096) (h : Fin 12) (n : Fin 49) : EReal :=
  (Finset.univ : Finset (Fin 49)).fold max negInf (fun m => score x W β bias mask b h n m)

/-- The exponential of a score less its row maximum. -/
def ex (b : Fin 4096) (h : Fin 12) (n m : Fin 49) : EReal :=
  Ideal.exp (score x W β bias mask b h n m - rowMax x W β bias mask b h n)

/-- The softmax weight. -/
def prob (b : Fin 4096) (h : Fin 12) (n m : Fin 49) : EReal :=
  Ideal.div (ex x W β bias mask b h n m) (∑ m' : Fin 49, ex x W β bias mask b h n m')

/-- The attention output at window b, token n, coordinate d of head h. -/
def att (b : Fin 4096) (n : Fin 49) (h : Fin 12) (d : Fin 32) : EReal :=
  ∑ m : Fin 49, prob x W β bias mask b h n m * lin x W β b m (qrow 2 (hcol h d))

variable (P : (⟨2, ![384, 384]⟩ : Shape).Idx → EReal) (π : (⟨1, ![384]⟩ : Shape).Idx → EReal)

/-- The output projection. -/
def out (b : Fin 4096) (n : Fin 49) (o : Fin 384) : EReal :=
  (∑ c : Fin 384, att x W β bias mask b n (headOf c) (coordOf c) * P (ix2 o c)) + π (ix1 o)

/-- The whole result array. -/
def result : (⟨3, ![4096, 49, 384]⟩ : Shape).Idx → EReal :=
  fun i => out x W β bias mask P π (i 0) (i 1) (i 2)

end

/-! ## One window and head, over abstract queries, keys and values

The same attention written over q, k, v as functions of a token and a coordinate inside the head, and the two additive
terms as functions of the two tokens: what one window's slab of a block computes, before the slab is placed among the
4096 windows. -/

section core
variable (q k v : Fin 49 → Fin 32 → EReal) (bi mk : Fin 49 → Fin 49 → EReal)

def cScore (n m : Fin 49) : EReal := (∑ d : Fin 32, q n d * k m d) * σ + bi n m + mk n m

def cMax (n : Fin 49) : EReal :=
  (Finset.univ : Finset (Fin 49)).fold max negInf (fun m => cScore q k bi mk n m)

def cEx (n m : Fin 49) : EReal := Ideal.exp (cScore q k bi mk n m - cMax q k bi mk n)

def cProb (n m : Fin 49) : EReal := Ideal.div (cEx q k bi mk n m) (∑ m' : Fin 49, cEx q k bi mk n m')

def core (n : Fin 49) (d : Fin 32) : EReal := ∑ m : Fin 49, cProb q k bi mk n m * v m d

end core

/-- The attention output of window b and head h is the core at that window's queries, keys and values, the head's bias
    and the window's mask. -/
theorem att_eq_core (x : (⟨3, ![4096, 49, 384]⟩ : Shape).Idx → EReal) (W : (⟨2, ![1152, 384]⟩ : Shape).Idx → EReal)
    (β : (⟨1, ![1152]⟩ : Shape).Idx → EReal) (bias : (⟨3, ![12, 49, 49]⟩ : Shape).Idx → EReal)
    (mask : (⟨3, ![64, 49, 49]⟩ : Shape).Idx → EReal) (b : Fin 4096) (n : Fin 49) (h : Fin 12) (d : Fin 32) :
    att x W β bias mask b n h d
      = core (fun n d => lin x W β b n (qrow 0 (hcol h d))) (fun m d => lin x W β b m (qrow 1 (hcol h d)))
          (fun m d => lin x W β b m (qrow 2 (hcol h d))) (fun n m => bias (ix3 h n m)) (fun n m => mask (ix3 (cyc b) n m)) n d :=
  rfl

end Cert.WindowAttn

end
-- ==== Proof.BodyValue.lean ====
/-
  The output block the kernel's body leaves at grid point t, as one function of the blocks it loads.  With x0 the 32
  windows of the point, x1 x2 x3 the query / key / value weights and x4 x5 x6 their bias rows, x7 x8 the output weight and
  bias row, x9 the head × token × token bias and x10 the 64 masks:

    proj Wp br (w, n, c) = Σ_e x0(w, n, e) · Wp(c, e) + br(0, c)
    attB (w, n, c)       = the per-window core at head c / 32 over proj's of window w, the head's bias and mask slot
                           (t mod 2)·32 + w — the window's slot in the cycle of 64, 32 windows to a point
    outB (w, n, o)       = Σ_c attB(w, n, c) · x7(o, c) + x8(0, o)

  Trip k of the body's loop stores attB on windows 4k … 4k+3; the eight trips cover the buffer; the last store is outB.
-/
import proofs.«136125_j4853313044771_2_alg».proof.Proof.Pieces
import proofs.«136125_j4853313044771_2_alg».proof.Proof.PayLinear
import proofs.«136125_j4853313044771_2_alg».proof.Proof.Spec
import Idealize.ShloMosaic.Lib.ValueIdx

set_option maxRecDepth 16384
set_option maxHeartbeats 2000000

noncomputable section

open scoped BigOperators

namespace Cert.KernelIdeal.BodyValue

open Cert.KernelIdeal Cert.KernelIdeal.Gen Cert.KernelIdeal.GenP Cert.KernelIdeal.Pieces Cert.KernelIdeal.PayValue
open Idealize.ShloMosaic Idealize.ShloMosaic.TcCoe Idealize.ShloMosaic.Tactic Idealize.SL Idealize.SL.Sem
open Idealize.ShloMosaic.ValueIdx Cert.WindowAttn

/-! ## The block's function -/

section spec
variable (x0 : Vec Ideal S32x49x384 .f32) (x1 : Vec Ideal S384x384 .f32) (x2 : Vec Ideal S384x384 .f32) (x3 : Vec Ideal S384x384 .f32) (x4 : Vec Ideal S1x384 .f32) (x5 : Vec Ideal S1x384 .f32) (x6 : Vec Ideal S1x384 .f32) (x7 : Vec Ideal S384x384 .f32) (x8 : Vec Ideal S1x384 .f32) (x9 : Vec Ideal S12x49x49 .f32) (x10 : Vec Ideal S64x49x49 .f32)

/-- One projection of window w of the block. -/
def proj (Wp : Vec Ideal S384x384 .f32) (br : Vec Ideal S1x384 .f32) (w : Fin 32) (n : Fin 49) (c : Fin 384) : EReal :=
  (∑ e : Fin 384, x0 (ix3 w n e) * Wp (ix2 c e)) + br (ix2 (0 : Fin 1) c)

/-- The mask slot of window w of the point whose number is tv: 32 windows to a point, 64 masks to a cycle. -/
def slot (tv : ℕ) (w : Fin 32) : Fin 64 := ⟨tv % 2 * 32 + w.val, by have := w.isLt; omega⟩

/-- The attention output of window w of the block. -/
def attB (tv : ℕ) (w : Fin 32) (n : Fin 49) (c : Fin 384) : EReal :=
  core (fun n d => proj x0 x1 x4 w n (hcol (headOf c) d)) (fun m d => proj x0 x2 x5 w m (hcol (headOf c) d))
    (fun m d => proj x0 x3 x6 w m (hcol (headOf c) d)) (fun n m => x9 (ix3 (headOf c) n m))
    (fun n m => x10 (ix3 (slot tv w) n m)) n (coordOf c)

/-- The output block. -/
def outB (tv : ℕ) (w : Fin 32) (n : Fin 49) (o : Fin 384) : EReal :=
  (∑ c : Fin 384, attB x0 x1 x2 x3 x4 x5 x6 x9 x10 tv w n c * x7 (ix2 o c)) + x8 (ix2 (0 : Fin 1) o)

end spec

/-! ## Where a trip reads and writes -/

/-- Trip k's mask rows start at the point's half of the cycle plus 4k. -/
theorem off2_eq : ∀ (t : Fin grid0.N) (k : Fin k0_t1_loop.trips),
    k0_off2 (grid0.coords t) k = ![t.val % 2 * 32 + 4 * k.val, 0, 0] := by decide +kernel

/-- A box of 4 windows from row r of a 32-window (or 64-mask) array reads window r + j. -/
theorem idx_rows {N a b : ℕ} {off : Fin 3 → ℕ} (r : ℕ) (ho : off = ![r, 0, 0])
    (inb : ∀ x, off x + (⟨3, ![4, a, b]⟩ : Shape).size x ≤ (⟨3, ![N, a, b]⟩ : Shape).size x)
    (j : Fin 4) (p : Fin a) (q : Fin b) (hr : r + j.val < N) :
    (Rect.unit (s := ⟨3, ![N, a, b]⟩) off (⟨3, ![4, a, b]⟩ : Shape).size inb).toLoadRect.idx (ix3 j p q)
      = ix3 (⟨r + j.val, hr⟩ : Fin N) p q := by
  subst ho
  funext x
  match x with
  | ⟨0, _⟩ => exact Fin.ext (by show r + 1 * j.val = r + j.val; omega)
  | ⟨1, _⟩ => exact Fin.ext (by show 0 + 1 * p.val = p.val; omega)
  | ⟨2, _⟩ => exact Fin.ext (by show 0 + 1 * q.val = q.val; omega)

/-! ## Each trip's payload is attB on its rows -/

/-- The bias block passes through a cast to its own shape. -/
theorem pay9_eq (v45 : Vec Ideal S12x49x49 .f32) : k0_pay9 (F := Ideal) v45 = v45 :=
  shapeCast_self v45 shapeCasts_S12x49x49_S12x49x49

/-- Trip k's payload — the attention of the scratch slabs' rows 4k … 4k+3 against the mask rows the trip reads — is, at
    (j, n, c), the block's attention output at window 4k + j. -/
theorem trip_value (hpay2 : ∀ (v46 : FVec Ideal S12x49x49 .f32) (v75 v77 v79 : Vec Ideal S4x49x384 .bf16) (v95 : Vec Ideal S4x49x49 .f32)
      (j : Fin 4) (n : Fin 49) (c : Fin 384),
      k0_pay2 (F := Ideal) v46 v75 v77 v79 v95 (ix3 j n c)
        = core (fun n d => v75 (ix3 j n (hcol (headOf c) d))) (fun m d => v77 (ix3 j m (hcol (headOf c) d)))
            (fun m d => v79 (ix3 j m (hcol (headOf c) d))) (fun n m => v46 (ix3 (headOf c) n m))
            (fun n m => v95 (ix3 j n m)) n (coordOf c))
    (t : Fin grid0.N)
    (arg11 : Memref sig .tc .vmem S64x49x49 .f32) (harg11 : arg11.IsWhole)
    (arg13 : Memref sig .tc .vmem S32x49x384 .bf16) (arg14 : Memref sig .tc .vmem S32x49x384 .bf16)
    (arg15 : Memref sig .tc .vmem S32x49x384 .bf16)
    (x0 : Vec Ideal S32x49x384 .f32) (x1 : Vec Ideal S384x384 .f32) (x2 : Vec Ideal S384x384 .f32) (x3 : Vec Ideal S384x384 .f32) (x4 : Vec Ideal S1x384 .f32) (x5 : Vec Ideal S1x384 .f32) (x6 : Vec Ideal S1x384 .f32) (x7 : Vec Ideal S384x384 .f32) (x8 : Vec Ideal S1x384 .f32) (x9 : Vec Ideal S12x49x49 .f32) (x10 : Vec Ideal S64x49x49 .f32) (k : Fin k0_t1_loop.trips) (x : S4x49x384.Idx) :
    k0_pay2 (F := Ideal) (k0_pay9 x9)
        (View.readAt (Elt Ideal) arg13.view (Rect.unit (s := S32x49x384) (k0_off1 k) S4x49x384.size (k0_off1_inb k)).toLoadRect
          (arg13.view.writes (Elt Ideal) arg13.view.junk
            [⟨Rect.unit ![0, 0, 0] ![32, 49, 384] inb_S32x49x384_S32x49x384_0_0_0, k0_pay5 x0 x1 x4⟩]))
        (View.readAt (Elt Ideal) arg14.view (Rect.unit (s := S32x49x384) (k0_off1 k) S4x49x384.size (k0_off1_inb k)).toLoadRect
          (arg14.view.writes (Elt Ideal) arg14.view.junk
            [⟨Rect.unit ![0, 0, 0] ![32, 49, 384] inb_S32x49x384_S32x49x384_0_0_0, k0_pay7 (k0_pay6 x0 x2 x5)⟩]))
        (View.readAt (Elt Ideal) arg15.view (Rect.unit (s := S32x49x384) (k0_off1 k) S4x49x384.size (k0_off1_inb k)).toLoadRect
          (arg15.view.writes (Elt Ideal) arg15.view.junk
            [⟨Rect.unit ![0, 0, 0] ![32, 49, 384] inb_S32x49x384_S32x49x384_0_0_0, k0_pay8 (k0_pay4 x0 x3 x6)⟩]))
        (View.readAt (Elt Ideal) arg11.view
          (Rect.unit (s := S64x49x49) (k0_off2 (grid0.coords t) k) S4x49x49.size (k0_off2_inb (grid0.coords t) k)).toLoadRect
          (harg11.unread x10)) x
      = (fun y : S32x49x384.Idx => attB x0 x1 x2 x3 x4 x5 x6 x9 x10 t.val (y 0) (y 1) (y 2))
          ((Rect.unit (s := S32x49x384) (k0_off1 k) ![4, 49, 384] (k0_off1_inb k)).emb x) := by
  have hk : k.val < 8 := Nat.lt_of_lt_of_le k.isLt k0_t1_abs.2.1
  obtain ⟨j, n, c, rfl⟩ : ∃ (j : Fin 4) (n : Fin 49) (c : Fin 384), x = ix3 j n c := ⟨x 0, x 1, x 2, eq_ix3 x⟩
  have hj := j.isLt
  have hw : 4 * k.val + j.val < 32 := by omega
  have hs : t.val % 2 * 32 + 4 * k.val + j.val < 64 := by omega
  have e1 : ∀ (p : Fin 49) (q : Fin 384),
      (Rect.unit (s := S32x49x384) (k0_off1 k) S4x49x384.size (k0_off1_inb k)).toLoadRect.idx (ix3 j p q)
        = ix3 (⟨4 * k.val + j.val, hw⟩ : Fin 32) p q :=
    fun p q => idx_rows (4 * k.val) (k0_off1_eq k) _ j p q hw
  have e2 : ∀ p q : Fin 49,
      (Rect.unit (s := S64x49x49) (k0_off2 (grid0.coords t) k) S4x49x49.size (k0_off2_inb (grid0.coords t) k)).toLoadRect.idx (ix3 j p q)
        = ix3 (⟨t.val % 2 * 32 + 4 * k.val + j.val, hs⟩ : Fin 64) p q :=
    fun p q => idx_rows (t.val % 2 * 32 + 4 * k.val) (off2_eq t k) _ j p q hs
  have e3 : (Rect.unit (s := S32x49x384) (k0_off1 k) ![4, 49, 384] (k0_off1_inb k)).emb (ix3 j n c)
      = ix3 (⟨4 * k.val + j.val, hw⟩ : Fin 32) n c := e1 n c
  rw [load_of_whole_store arg13 _ hz3, load_of_whole_store arg14 _ hz3, load_of_whole_store arg15 _ hz3,
    View.readAt_eq_ld, harg11.read_unread, hpay2, e3]
  simp only [e1, e2, View.ld, pay5_apply, pay7_eq, pay6_apply, pay8_pay4_apply, pay9_eq]
  have es : (⟨t.val % 2 * 32 + 4 * k.val + j.val, hs⟩ : Fin 64) = slot t.val ⟨4 * k.val + j.val, hw⟩ :=
    Fin.ext (by show t.val % 2 * 32 + 4 * k.val + j.val = t.val % 2 * 32 + (4 * k.val + j.val); omega)
  rw [es]
  rfl

end Cert.KernelIdeal.BodyValue

end
-- ==== Proof.PayAttention.lean ====
/-
  The attention payload of the kernel at the extended reals, read at an index.  The query, key and value slabs of four
  windows are split into heads (channel h·32 + d is coordinate d of head h) and stacked with batch index j·12 + h; the
  scores are the batched product over the head's coordinates, scaled, plus the head's bias and the window's mask; each row
  is normalised by its maximum and its sum; the weights multiply the values and the heads are merged back into channels.
  At window j, token n and channel c this is the per-window core of the specification at head c / 32 and coordinate
  c mod 32.
-/
import proofs.«136125_j4853313044771_2_alg».proof.Proof.Gen.KernelIdeal.Skeleton
import proofs.«136125_j4853313044771_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.ShloMosaic.ValueIdx Cert.WindowAttn

/-- The batch index j·12 + h of head h of window j among the 48 stacked heads. -/
def bh (j : Fin 4) (h : Fin 12) : Fin 48 := ⟨j.val * 12 + h.val, by have := j.isLt; have := h.isLt; omega⟩

/-! ## The layout stages -/

/-- A slab [4, 49, 384] split into heads and stacked: [4, 49, 12, 32], heads before tokens, then [48, 49, 32]. -/
def headSplit {α : Type} (X : S4x49x384.Idx → α) : S48x49x32.Idx → α :=
  shapeCast S48x49x32
    (transpose S4x12x49x32 [0, 2, 1, 3] (shapeCast S4x49x12x32 X shapeCasts_S4x49x384_S4x49x12x32)
      transposes_S4x49x12x32_p0_2_1_3_S4x12x49x32)
    shapeCasts_S4x12x49x32_S48x49x32

/-- The stacked heads read, at batch j·12 + h, token n and coordinate d, the slab at (j, n, h·32 + d). -/
theorem headSplit_apply {α : Type} (X : S4x49x384.Idx → α) (j : Fin 4) (h : Fin 12) (n : Fin 49) (d : Fin 32) :
    headSplit X (ix3 (bh j h) n d) = X (ix3 j n (hcol h d)) := by
  unfold headSplit
  refine (shapeCast_apply _ shapeCasts_S4x12x49x32_S48x49x32 (ix3 (bh j h) n d) (ix4 j h n d) ?_).trans ?_
  · rw [Shape.rowMajor_val_four, Shape.rowMajor_val_three]; rfl
  refine (transpose_apply _ _ transposes_S4x49x12x32_p0_2_1_3_S4x12x49x32 (ix4 j h n d) (ix4 j n h d) fun b => ?_).trans ?_
  · match b with
    | ⟨0, _⟩ => rfl
    | ⟨1, _⟩ => rfl
    | ⟨2, _⟩ => rfl
    | ⟨3, _⟩ => rfl
  refine shapeCast_apply X shapeCasts_S4x49x384_S4x49x12x32 (ix4 j n h d) (ix3 j n (hcol h d)) ?_
  rw [Shape.rowMajor_val_three, Shape.rowMajor_val_four]
  show (j.val * 49 + n.val) * 384 + (h.val * 32 + d.val) = ((j.val * 49 + n.val) * 12 + h.val) * 32 + d.val
  omega

/-- The stacked heads [48, 49, 32] merged back: [4, 12, 49, 32], tokens before heads, then channels [4, 49, 384]. -/
def headMerge {α : Type} (Y : S48x49x32.Idx → α) : S4x49x384.Idx → α :=
  shapeCast S4x49x384
    (transpose S4x49x12x32 [0, 2, 1, 3] (shapeCast S4x12x49x32 Y shapeCasts_S48x49x32_S4x12x49x32)
      transposes_S4x12x49x32_p0_2_1_3_S4x49x12x32)
    shapeCasts_S4x49x12x32_S4x49x384

/-- The merged slab reads, at (j, n, h·32 + d), the stack at batch j·12 + h, token n, coordinate d. -/
theorem headMerge_apply {α : Type} (Y : S48x49x32.Idx → α) (j : Fin 4) (h : Fin 12) (n : Fin 49) (d : Fin 32) :
    headMerge Y (ix3 j n (hcol h d)) = Y (ix3 (bh j h) n d) := by
  unfold headMerge
  refine (shapeCast_apply _ shapeCasts_S4x49x12x32_S4x49x384 (ix3 j n (hcol h d)) (ix4 j n h d) ?_).trans ?_
  · rw [Shape.rowMajor_val_four, Shape.rowMajor_val_three]
    show ((j.val * 49 + n.val) * 12 + h.val) * 32 + d.val = (j.val * 49 + n.val) * 384 + (h.val * 32 + d.val)
    omega
  refine (transpose_apply _ _ transposes_S4x12x49x32_p0_2_1_3_S4x49x12x32 (ix4 j n h d) (ix4 j h n d) fun b => ?_).trans ?_
  · match b with
    | ⟨0, _⟩ => rfl
    | ⟨1, _⟩ => rfl
    | ⟨2, _⟩ => rfl
    | ⟨3, _⟩ => rfl
  refine shapeCast_apply Y shapeCasts_S48x49x32_S4x12x49x32 (ix4 j h n d) (ix3 (bh j h) n d) ?_
  rw [Shape.rowMajor_val_three, Shape.rowMajor_val_four]; rfl

/-- The stack of 48 score matrices split into windows and heads. -/
theorem split48_apply {α : Type} (X : S48x49x49.Idx → α) (j : Fin 4) (h : Fin 12) (n m : Fin 49) :
    shapeCast S4x12x49x49 X shapeCasts_S48x49x49_S4x12x49x49 (ix4 j h n m) = X (ix3 (bh j h) n m) :=
  shapeCast_apply X shapeCasts_S48x49x49_S4x12x49x49 (ix4 j h n m) (ix3 (bh j h) n m)
    (by rw [Shape.rowMajor_val_three, Shape.rowMajor_val_four]; rfl)

/-- … and stacked again. -/
theorem merge48_apply {α : Type} (X : S4x12x49x49.Idx → α) (j : Fin 4) (h : Fin 12) (n m : Fin 49) :
    shapeCast S48x49x49 X shapeCasts_S4x12x49x49_S48x49x49 (ix3 (bh j h) n m) = X (ix4 j h n m) :=
  shapeCast_apply X shapeCasts_S4x12x49x49_S48x49x49 (ix3 (bh j h) n m) (ix4 j h n m)
    (by rw [Shape.rowMajor_val_three, Shape.rowMajor_val_four]; rfl)

/-- The bias [12, 49, 49] laid over the four windows. -/
theorem biasBc_apply {α : Type} (B : S12x49x49.Idx → α) (j : Fin 4) (h : Fin 12) (n m : Fin 49) :
    broadcastTo S4x12x49x49 (shapeCast S1x12x49x49 B shapeCasts_S12x49x49_S1x12x49x49) broadcasts_S1x12x49x49_S4x12x49x49
        (ix4 j h n m) = B (ix3 h n m) := by
  refine (broadcastTo_apply _ broadcasts_S1x12x49x49_S4x12x49x49 (ix4 j h n m) (ix4 (0 : Fin 1) h n m) fun a => ?_).trans ?_
  · match a with
    | ⟨0, _⟩ => rfl
    | ⟨1, _⟩ => rfl
    | ⟨2, _⟩ => rfl
    | ⟨3, _⟩ => rfl
  refine shapeCast_apply B shapeCasts_S12x49x49_S1x12x49x49 (ix4 (0 : Fin 1) h n m) (ix3 h n m) ?_
  rw [Shape.rowMajor_val_three, Shape.rowMajor_val_four]
  show (h.val * 49 + n.val) * 49 + m.val = (((0 : Fin 1).val * 12 + h.val) * 49 + n.val) * 49 + m.val
  simp

/-- The masks [4, 49, 49] laid over the twelve heads. -/
theorem maskBc_apply {α : Type} (M : S4x49x49.Idx → α) (j : Fin 4) (h : Fin 12) (n m : Fin 49) :
    broadcastTo S4x12x49x49 (shapeCast S4x1x49x49 M shapeCasts_S4x49x49_S4x1x49x49) broadcasts_S4x1x49x49_S4x12x49x49
        (ix4 j h n m) = M (ix3 j n m) := by
  refine (broadcastTo_apply _ broadcasts_S4x1x49x49_S4x12x49x49 (ix4 j h n m) (ix4 j (0 : Fin 1) n m) fun a => ?_).trans ?_
  · match a with
    | ⟨0, _⟩ => rfl
    | ⟨1, _⟩ => rfl
    | ⟨2, _⟩ => rfl
    | ⟨3, _⟩ => rfl
  refine shapeCast_apply M shapeCasts_S4x49x49_S4x1x49x49 (ix4 j (0 : Fin 1) n m) (ix3 j n m) ?_
  rw [Shape.rowMajor_val_three, Shape.rowMajor_val_four]
  show (j.val * 49 + n.val) * 49 + m.val = ((j.val * 1 + (0 : Fin 1).val) * 49 + n.val) * 49 + m.val
  simp

/-- A per-row value [4, 12, 49] laid along its row. -/
def rowBc {α : Type} (R : S4x12x49.Idx → α) : S4x12x49x49.Idx → α :=
  broadcastTo S4x12x49x49 (shapeCast S4x12x49x1 R shapeCasts_S4x12x49_S4x12x49x1) broadcasts_S4x12x49x1_S4x12x49x49

theorem rowBc_apply {α : Type} (R : S4x12x49.Idx → α) (j : Fin 4) (h : Fin 12) (n m : Fin 49) :
    rowBc R (ix4 j h n m) = R (ix3 j h n) := by
  unfold rowBc
  refine (broadcastTo_apply _ broadcasts_S4x12x49x1_S4x12x49x49 (ix4 j h n m) (ix4 j h n (0 : Fin 1)) fun a => ?_).trans ?_
  · match a with
    | ⟨0, _⟩ => rfl
    | ⟨1, _⟩ => rfl
    | ⟨2, _⟩ => rfl
    | ⟨3, _⟩ => rfl
  refine shapeCast_apply R shapeCasts_S4x12x49_S4x12x49x1 (ix4 j h n (0 : Fin 1)) (ix3 j h n) ?_
  rw [Shape.rowMajor_val_three, Shape.rowMajor_val_four]
  show (j.val * 12 + h.val) * 49 + n.val = ((j.val * 12 + h.val) * 49 + n.val) * 1 + (0 : Fin 1).val
  simp

/-! ## The two batched products -/

theorem qk_lhs0 (i : S48x49x49.Idx) (q : dot_S48x49x32_S48x49x32_S48x49x49_2_2_1_1_0_0.contr.Idx) : (dot_S48x49x32_S48x49x32_S48x49x49_2_2_1_1_0_0.lhsIdx i q 0).val = (i 0).val := by
  unfold DotDims.lhsIdx
  rw [dif_pos (show (0 : Fin S48x49x32.rank) ∈ dot_S48x49x32_S48x49x32_S48x49x49_2_2_1_1_0_0.lhsBatch by decide)]
  rfl
theorem qk_lhs1 (i : S48x49x49.Idx) (q : dot_S48x49x32_S48x49x32_S48x49x49_2_2_1_1_0_0.contr.Idx) : (dot_S48x49x32_S48x49x32_S48x49x49_2_2_1_1_0_0.lhsIdx i q 1).val = (i 1).val := by
  unfold DotDims.lhsIdx
  rw [dif_neg (show ¬(1 : Fin S48x49x32.rank) ∈ dot_S48x49x32_S48x49x32_S48x49x49_2_2_1_1_0_0.lhsBatch by decide), dif_pos (show (1 : Fin S48x49x32.rank) ∈ dot_S48x49x32_S48x49x32_S48x49x49_2_2_1_1_0_0.lhsNonContracting by decide)]
  rfl
theorem qk_lhs2 (i : S48x49x49.Idx) (q : dot_S48x49x32_S48x49x32_S48x49x49_2_2_1_1_0_0.contr.Idx) : (dot_S48x49x32_S48x49x32_S48x49x49_2_2_1_1_0_0.lhsIdx i q 2).val = (q ⟨0, by decide⟩).val :=
  dot_S48x49x32_S48x49x32_S48x49x49_2_2_1_1_0_0.lhsIdx_val_of_single rfl i q
theorem qk_rhs0 (i : S48x49x49.Idx) (q : dot_S48x49x32_S48x49x32_S48x49x49_2_2_1_1_0_0.contr.Idx) : (dot_S48x49x32_S48x49x32_S48x49x49_2_2_1_1_0_0.rhsIdx i q 0).val = (i 0).val := by
  unfold DotDims.rhsIdx
  rw [dif_pos (show (0 : Fin S48x49x32.rank) ∈ dot_S48x49x32_S48x49x32_S48x49x49_2_2_1_1_0_0.rhsBatch by decide)]
  rfl
theorem qk_rhs1 (i : S48x49x49.Idx) (q : dot_S48x49x32_S48x49x32_S48x49x49_2_2_1_1_0_0.contr.Idx) : (dot_S48x49x32_S48x49x32_S48x49x49_2_2_1_1_0_0.rhsIdx i q 1).val = (i 2).val := by
  unfold DotDims.rhsIdx
  rw [dif_neg (show ¬(1 : Fin S48x49x32.rank) ∈ dot_S48x49x32_S48x49x32_S48x49x49_2_2_1_1_0_0.rhsBatch by decide), dif_pos (show (1 : Fin S48x49x32.rank) ∈ dot_S48x49x32_S48x49x32_S48x49x49_2_2_1_1_0_0.rhsNonContracting by decide)]
  rfl
theorem qk_rhs2 (i : S48x49x49.Idx) (q : dot_S48x49x32_S48x49x32_S48x49x49_2_2_1_1_0_0.contr.Idx) : (dot_S48x49x32_S48x49x32_S48x49x49_2_2_1_1_0_0.rhsIdx i q 2).val = (q ⟨0, by decide⟩).val :=
  dot_S48x49x32_S48x49x32_S48x49x49_2_2_1_1_0_0.rhsIdx_val_of_single rfl i q

/-- The batched product of queries and keys over the head's coordinates, accumulated into zero: at batch b and tokens
    n, m the sum over d of the query at (b, n, d) times the key at (b, m, d). -/
theorem qk_apply (Q K : FVec Ideal S48x49x32 .bf16) (b : Fin 48) (n m : Fin 49) :
    matmul dot_S48x49x32_S48x49x32_S48x49x49_2_2_1_1_0_0 none Q K (constant S48x49x49 .f32 0x00000000#32) (ix3 b n m)
      = ∑ d : Fin 32, Q (ix3 b n d) * K (ix3 b m d) := by
  refine (Ideal.matmul_constant_zero_apply dot_S48x49x32_S48x49x32_S48x49x49_2_2_1_1_0_0 none Q K (ix3 b n m)).trans ?_
  rw [← Equiv.sum_comp (contrEquiv1 dot_S48x49x32_S48x49x32_S48x49x49_2_2_1_1_0_0 32 rfl rfl).symm]
  refine Finset.sum_congr rfl fun d _ => ?_
  have hk := contrEquiv1_symm_val dot_S48x49x32_S48x49x32_S48x49x49_2_2_1_1_0_0 32 rfl rfl d
  have el : dot_S48x49x32_S48x49x32_S48x49x49_2_2_1_1_0_0.lhsIdx (ix3 b n m) ((contrEquiv1 dot_S48x49x32_S48x49x32_S48x49x49_2_2_1_1_0_0 32 rfl rfl).symm d) = ix3 b n d :=
    funext fun a => Fin.ext (by
      match a with
      | ⟨0, _⟩ => exact qk_lhs0 _ _
      | ⟨1, _⟩ => exact qk_lhs1 _ _
      | ⟨2, _⟩ => exact (qk_lhs2 _ _).trans hk)
  have er : dot_S48x49x32_S48x49x32_S48x49x49_2_2_1_1_0_0.rhsIdx (ix3 b n m) ((contrEquiv1 dot_S48x49x32_S48x49x32_S48x49x49_2_2_1_1_0_0 32 rfl rfl).symm d) = ix3 b m d :=
    funext fun a => Fin.ext (by
      match a with
      | ⟨0, _⟩ => exact qk_rhs0 _ _
      | ⟨1, _⟩ => exact qk_rhs1 _ _
      | ⟨2, _⟩ => exact (qk_rhs2 _ _).trans hk)
  rw [el, er]

theorem pv_lhs0 (i : S48x49x32.Idx) (q : dot_S48x49x49_S48x49x32_S48x49x32_2_1_1_2_0_0.contr.Idx) : (dot_S48x49x49_S48x49x32_S48x49x32_2_1_1_2_0_0.lhsIdx i q 0).val = (i 0).val := by
  unfold DotDims.lhsIdx
  rw [dif_pos (show (0 : Fin S48x49x49.rank) ∈ dot_S48x49x49_S48x49x32_S48x49x32_2_1_1_2_0_0.lhsBatch by decide)]
  rfl
theorem pv_lhs1 (i : S48x49x32.Idx) (q : dot_S48x49x49_S48x49x32_S48x49x32_2_1_1_2_0_0.contr.Idx) : (dot_S48x49x49_S48x49x32_S48x49x32_2_1_1_2_0_0.lhsIdx i q 1).val = (i 1).val := by
  unfold DotDims.lhsIdx
  rw [dif_neg (show ¬(1 : Fin S48x49x49.rank) ∈ dot_S48x49x49_S48x49x32_S48x49x32_2_1_1_2_0_0.lhsBatch by decide), dif_pos (show (1 : Fin S48x49x49.rank) ∈ dot_S48x49x49_S48x49x32_S48x49x32_2_1_1_2_0_0.lhsNonContracting by decide)]
  rfl
theorem pv_lhs2 (i : S48x49x32.Idx) (q : dot_S48x49x49_S48x49x32_S48x49x32_2_1_1_2_0_0.contr.Idx) : (dot_S48x49x49_S48x49x32_S48x49x32_2_1_1_2_0_0.lhsIdx i q 2).val = (q ⟨0, by decide⟩).val :=
  dot_S48x49x49_S48x49x32_S48x49x32_2_1_1_2_0_0.lhsIdx_val_of_single rfl i q
theorem pv_rhs0 (i : S48x49x32.Idx) (q : dot_S48x49x49_S48x49x32_S48x49x32_2_1_1_2_0_0.contr.Idx) : (dot_S48x49x49_S48x49x32_S48x49x32_2_1_1_2_0_0.rhsIdx i q 0).val = (i 0).val := by
  unfold DotDims.rhsIdx
  rw [dif_pos (show (0 : Fin S48x49x32.rank) ∈ dot_S48x49x49_S48x49x32_S48x49x32_2_1_1_2_0_0.rhsBatch by decide)]
  rfl
theorem pv_rhs1 (i : S48x49x32.Idx) (q : dot_S48x49x49_S48x49x32_S48x49x32_2_1_1_2_0_0.contr.Idx) : (dot_S48x49x49_S48x49x32_S48x49x32_2_1_1_2_0_0.rhsIdx i q 1).val = (q ⟨0, by decide⟩).val :=
  dot_S48x49x49_S48x49x32_S48x49x32_2_1_1_2_0_0.rhsIdx_val_of_single rfl i q
theorem pv_rhs2 (i : S48x49x32.Idx) (q : dot_S48x49x49_S48x49x32_S48x49x32_2_1_1_2_0_0.contr.Idx) : (dot_S48x49x49_S48x49x32_S48x49x32_2_1_1_2_0_0.rhsIdx i q 2).val = (i 2).val := by
  unfold DotDims.rhsIdx
  rw [dif_neg (show ¬(2 : Fin S48x49x32.rank) ∈ dot_S48x49x49_S48x49x32_S48x49x32_2_1_1_2_0_0.rhsBatch by decide), dif_pos (show (2 : Fin S48x49x32.rank) ∈ dot_S48x49x49_S48x49x32_S48x49x32_2_1_1_2_0_0.rhsNonContracting by decide)]
  rfl

/-- The batched product of weights and values over the key tokens, accumulated into zero: at batch b, token n and
    coordinate d the sum over m of the weight at (b, n, m) times the value at (b, m, d). -/
theorem pv_apply (P : FVec Ideal S48x49x49 .bf16) (V : FVec Ideal S48x49x32 .bf16) (b : Fin 48) (n : Fin 49) (d : Fin 32) :
    matmul dot_S48x49x49_S48x49x32_S48x49x32_2_1_1_2_0_0 none P V (constant S48x49x32 .f32 0x00000000#32) (ix3 b n d)
      = ∑ m : Fin 49, P (ix3 b n m) * V (ix3 b m d) := by
  refine (Ideal.matmul_constant_zero_apply dot_S48x49x49_S48x49x32_S48x49x32_2_1_1_2_0_0 none P V (ix3 b n d)).trans ?_
  rw [← Equiv.sum_comp (contrEquiv1 dot_S48x49x49_S48x49x32_S48x49x32_2_1_1_2_0_0 49 rfl rfl).symm]
  refine Finset.sum_congr rfl fun m _ => ?_
  have hk := contrEquiv1_symm_val dot_S48x49x49_S48x49x32_S48x49x32_2_1_1_2_0_0 49 rfl rfl m
  have el : dot_S48x49x49_S48x49x32_S48x49x32_2_1_1_2_0_0.lhsIdx (ix3 b n d) ((contrEquiv1 dot_S48x49x49_S48x49x32_S48x49x32_2_1_1_2_0_0 49 rfl rfl).symm m) = ix3 b n m :=
    funext fun a => Fin.ext (by
      match a with
      | ⟨0, _⟩ => exact pv_lhs0 _ _
      | ⟨1, _⟩ => exact pv_lhs1 _ _
      | ⟨2, _⟩ => exact (pv_lhs2 _ _).trans hk)
  have er : dot_S48x49x49_S48x49x32_S48x49x32_2_1_1_2_0_0.rhsIdx (ix3 b n d) ((contrEquiv1 dot_S48x49x49_S48x49x32_S48x49x32_2_1_1_2_0_0 49 rfl rfl).symm m) = ix3 b m d :=
    funext fun a => Fin.ext (by
      match a with
      | ⟨0, _⟩ => exact pv_rhs0 _ _
      | ⟨1, _⟩ => exact (pv_rhs1 _ _).trans hk
      | ⟨2, _⟩ => exact pv_rhs2 _ _)
  rw [el, er]

/-! ## The two row reductions -/

/-- The index (j, h, n) with the key token m put back on the last axis is (j, h, n, m). -/
theorem lift_row (j : Fin 4) (h : Fin 12) (n : Fin 49) (m : Fin 49) :
    reduces_S4x12x49x49_S4x12x49.lift (a := (3 : Fin 4)) (ix3 j h n) m = ix4 j h n m :=
  funext fun c => Fin.ext (by
    match c with
    | ⟨0, _⟩ => rfl
    | ⟨1, _⟩ => rfl
    | ⟨2, _⟩ => rfl
    | ⟨3, _⟩ => rfl)

/-- The row maximum from the word of −∞: the fold of max over the key tokens. -/
theorem rowMax_apply (S : FVec Ideal S4x12x49x49 .f32) (j : Fin 4) (h : Fin 12) (n : Fin 49) :
    multiReduction (F := Ideal) .maximumf [3] S4x12x49 S 0xFF800000#32 reduces_S4x12x49x49_S4x12x49 (.inl rfl) rfl (ix3 j h n)
      = (Finset.univ : Finset (Fin 49)).fold max negInf (fun m => S (ix4 j h n m)) := by
  refine (Ideal.multiReduction_maximumf_single S 0xFF800000#32 reduces_S4x12x49x49_S4x12x49 (.inl rfl) rfl (ix3 j h n)).trans ?_
  show (Finset.univ : Finset (Fin 49)).fold max negInf (fun m => S (reduces_S4x12x49x49_S4x12x49.lift (a := (3 : Fin 4)) (ix3 j h n) m)) = _
  exact congrArg ((Finset.univ : Finset (Fin 49)).fold max negInf) (funext fun m => congrArg S (lift_row j h n m))

/-- The row sum from zero. -/
theorem rowSum_apply (E : FVec Ideal S4x12x49x49 .f32) (j : Fin 4) (h : Fin 12) (n : Fin 49) :
    multiReduction (F := Ideal) .add [3] S4x12x49 E 0x00000000#32 reduces_S4x12x49x49_S4x12x49 (.inl rfl) rfl (ix3 j h n)
      = ∑ m : Fin 49, E (ix4 j h n m) := by
  refine (Ideal.multiReduction_add_single E 0x00000000#32 reduces_S4x12x49x49_S4x12x49 (.inl rfl) rfl (ix3 j h n)).trans ?_
  show ∑ m : Fin 49, E (reduces_S4x12x49x49_S4x12x49.lift (a := (3 : Fin 4)) (ix3 j h n) m) = _
  exact Finset.sum_congr rfl fun m _ => congrArg E (lift_row j h n m)

/-! ## The arrays of the payload -/

/-- The scores of the four windows' twelve heads: the scaled batched product plus the bias plus the mask. -/
def scoreArr (v46 : FVec Ideal S12x49x49 .f32) (v75 v77 : Vec Ideal S4x49x384 .bf16) (v95 : Vec Ideal S4x49x49 .f32) :
    FVec Ideal S4x12x49x49 .f32 :=
  addf
    (addf
      (shapeCast S4x12x49x49
        (mulf (matmul dot_S48x49x32_S48x49x32_S48x49x49_2_2_1_1_0_0 none (headSplit v75 : FVec Ideal S48x49x32 .bf16)
            (headSplit v77 : FVec Ideal S48x49x32 .bf16) (constant S48x49x49 .f32 0x00000000#32))
          (broadcast S48x49x49 (Scalar.ofBits (F := Ideal) .f32 0x3E3504F3#32)))
        shapeCasts_S48x49x49_S4x12x49x49)
      (broadcastTo S4x12x49x49 (shapeCast S1x12x49x49 v46 shapeCasts_S12x49x49_S1x12x49x49) broadcasts_S1x12x49x49_S4x12x49x49))
    (broadcastTo S4x12x49x49 (shapeCast S4x1x49x49 v95 shapeCasts_S4x49x49_S4x1x49x49) broadcasts_S4x1x49x49_S4x12x49x49)

/-- The exponentials of the scores less their row maxima. -/
def expArr (S : FVec Ideal S4x12x49x49 .f32) : FVec Ideal S4x12x49x49 .f32 :=
  exp (subf S (rowBc
    (multiReduction (F := Ideal) .maximumf [3] S4x12x49 S 0xFF800000#32 reduces_S4x12x49x49_S4x12x49 (.inl rfl) rfl)))

/-- The exponentials divided by their row sums. -/
def probArr (S : FVec Ideal S4x12x49x49 .f32) : FVec Ideal S4x12x49x49 .f32 :=
  divf (expArr S) (rowBc
    (multiReduction (F := Ideal) .add [3] S4x12x49 (expArr S) 0x00000000#32 reduces_S4x12x49x49_S4x12x49 (.inl rfl) rfl))

/-- The weights times the values, heads merged back into channels. -/
def attnOut (P : FVec Ideal S4x12x49x49 .f32) (v79 : Vec Ideal S4x49x384 .bf16) : FVec Ideal S4x49x384 .f32 :=
  headMerge
    (matmul dot_S48x49x49_S48x49x32_S48x49x32_2_1_1_2_0_0 none
      (truncf .bf16 (shapeCast S48x49x49 P shapeCasts_S4x12x49x49_S48x49x49) bitsLt_bf16_f32 : FVec Ideal S48x49x49 .bf16)
      (headSplit v79 : FVec Ideal S48x49x32 .bf16) (constant S48x49x32 .f32 0x00000000#32))

/-- The payload is these four stages composed. -/
theorem pay2_eq (v46 : FVec Ideal S12x49x49 .f32) (v75 v77 v79 : Vec Ideal S4x49x384 .bf16) (v95 : Vec Ideal S4x49x49 .f32) :
    k0_pay2 (F := Ideal) v46 v75 v77 v79 v95 = attnOut (probArr (scoreArr v46 v75 v77 v95)) v79 := rfl

/-- The scores at window j, head h and tokens n, m are the core's scores of that window's queries and keys at the head's
    columns, the head's bias and the window's mask. -/
theorem scoreArr_apply (v46 : FVec Ideal S12x49x49 .f32) (v75 v77 : Vec Ideal S4x49x384 .bf16) (v95 : Vec Ideal S4x49x49 .f32)
    (j : Fin 4) (h : Fin 12) (n m : Fin 49) :
    scoreArr v46 v75 v77 v95 (ix4 j h n m)
      = cScore (fun n d => v75 (ix3 j n (hcol h d))) (fun m d => v77 (ix3 j m (hcol h d)))
          (fun n m => v46 (ix3 h n m)) (fun n m => v95 (ix3 j n m)) n m := by
  unfold scoreArr cScore
  refine (addf_apply _ _ _).trans ?_
  refine congrArg₂ (· + ·) ?_ (maskBc_apply v95 j h n m)
  refine (addf_apply _ _ _).trans ?_
  refine congrArg₂ (· + ·) ?_ (biasBc_apply v46 j h n m)
  refine (split48_apply _ j h n m).trans ?_
  refine (mulf_apply _ _ _).trans ?_
  refine congrArg₂ (· * ·) ?_ rfl
  refine (qk_apply _ _ (bh j h) n m).trans ?_
  refine Finset.sum_congr rfl fun d _ => ?_
  exact congrArg₂ (· * ·) (headSplit_apply v75 j h n d) (headSplit_apply v77 j h m d)

theorem expArr_apply (S : FVec Ideal S4x12x49x49 .f32) (j : Fin 4) (h : Fin 12) (n m : Fin 49) :
    expArr S (ix4 j h n m)
      = Ideal.exp (S (ix4 j h n m) - (Finset.univ : Finset (Fin 49)).fold max negInf (fun m' => S (ix4 j h n m'))) := by
  unfold expArr
  show Ideal.exp (subf S (rowBc _) (ix4 j h n m)) = _
  refine congrArg Ideal.exp ?_
  refine (subf_apply _ _ _).trans ?_
  refine congrArg (S (ix4 j h n m) - ·) ?_
  exact (rowBc_apply _ j h n m).trans (rowMax_apply S j h n)

theorem probArr_apply (S : FVec Ideal S4x12x49x49 .f32) (j : Fin 4) (h : Fin 12) (n m : Fin 49) :
    probArr S (ix4 j h n m) = Ideal.div (expArr S (ix4 j h n m)) (∑ m' : Fin 49, expArr S (ix4 j h n m')) := by
  unfold probArr
  refine (divf_apply _ _ _).trans ?_
  refine congrArg (Ideal.div (expArr S (ix4 j h n m))) ?_
  exact (rowBc_apply _ j h n m).trans (rowSum_apply (expArr S) j h n)

section core
variable (q k : Fin 49 → Fin 32 → EReal) (bi mk : Fin 49 → Fin 49 → EReal)

/-- Where the scores of one window and head are the core's, so are the exponentials … -/
theorem expArr_core (S : FVec Ideal S4x12x49x49 .f32) (j : Fin 4) (h : Fin 12)
    (hS : ∀ n m, S (ix4 j h n m) = cScore q k bi mk n m) (n m : Fin 49) :
    expArr S (ix4 j h n m) = cEx q k bi mk n m := by
  rw [expArr_apply]
  unfold cEx cMax
  rw [hS n m, show (fun m' => S (ix4 j h n m')) = fun m' => cScore q k bi mk n m' from funext fun m' => hS n m']

/-- … and the weights. -/
theorem probArr_core (S : FVec Ideal S4x12x49x49 .f32) (j : Fin 4) (h : Fin 12)
    (hS : ∀ n m, S (ix4 j h n m) = cScore q k bi mk n m) (n m : Fin 49) :
    probArr S (ix4 j h n m) = cProb q k bi mk n m := by
  rw [probArr_apply]
  unfold cProb
  rw [expArr_core q k bi mk S j h hS n m,
    show (fun m' => expArr S (ix4 j h n m')) = fun m' => cEx q k bi mk n m' from
      funext fun m' => expArr_core q k bi mk S j h hS n m']

end core

/-- The output at window j, token n and column h·32 + d: the weights of head h against its values' coordinate d. -/
theorem attnOut_apply (P : FVec Ideal S4x12x49x49 .f32) (v79 : Vec Ideal S4x49x384 .bf16)
    (j : Fin 4) (h : Fin 12) (n : Fin 49) (d : Fin 32) :
    attnOut P v79 (ix3 j n (hcol h d)) = ∑ m : Fin 49, P (ix4 j h n m) * v79 (ix3 j m (hcol h d)) := by
  unfold attnOut
  refine (headMerge_apply _ j h n d).trans ?_
  refine (pv_apply _ _ (bh j h) n d).trans ?_
  refine Finset.sum_congr rfl fun m _ => ?_
  refine congrArg₂ (· * ·) ?_ (headSplit_apply v79 j h m d)
  exact (truncf_apply _ bitsLt_bf16_f32 _).trans (merge48_apply P j h n m)

/-- The payload at window j, token n and column h·32 + d is the core of the specification at head h, coordinate d. -/
theorem pay2_at (v46 : FVec Ideal S12x49x49 .f32) (v75 v77 v79 : Vec Ideal S4x49x384 .bf16) (v95 : Vec Ideal S4x49x49 .f32)
    (j : Fin 4) (h : Fin 12) (n : Fin 49) (d : Fin 32) :
    k0_pay2 (F := Ideal) v46 v75 v77 v79 v95 (ix3 j n (hcol h d))
      = core (fun n d => v75 (ix3 j n (hcol h d))) (fun m d => v77 (ix3 j m (hcol h d)))
          (fun m d => v79 (ix3 j m (hcol h d))) (fun n m => v46 (ix3 h n m)) (fun n m => v95 (ix3 j n m)) n d := by
  rw [pay2_eq]
  unfold core
  refine (attnOut_apply _ v79 j h n d).trans ?_
  refine Finset.sum_congr rfl fun m _ => ?_
  refine congrArg (· * v79 (ix3 j m (hcol h d))) ?_
  exact probArr_core _ _ _ _ _ j h (fun n m => scoreArr_apply v46 v75 v77 v95 j h n m) n m

theorem pay2_apply (v46 : FVec Ideal S12x49x49 .f32) (v75 v77 v79 : Vec Ideal S4x49x384 .bf16) (v95 : Vec Ideal S4x49x49 .f32)
    (j : Fin 4) (n : Fin 49) (c : Fin 384) :
    k0_pay2 (F := Ideal) v46 v75 v77 v79 v95 (ix3 j n c)
      = core (fun n d => v75 (ix3 j n (hcol (headOf c) d))) (fun m d => v77 (ix3 j m (hcol (headOf c) d)))
          (fun m d => v79 (ix3 j m (hcol (headOf c) d))) (fun n m => v46 (ix3 (headOf c) n m))
          (fun n m => v95 (ix3 j n m)) n (coordOf c) := by
  have e := pay2_at v46 v75 v77 v79 v95 j (headOf c) n (coordOf c)
  rw [hcol_headOf_coordOf] at e
  exact e

end Cert.KernelIdeal.PayValue

end
-- ==== Proof.BlockValue.lean ====
/-
  The kernel's body at grid point t leaves, in the output's staging buffer, the block's output projection outB of the
  blocks it loaded: the last store's payload is the output projection of the buffer read back whole, and the buffer
  read back is the eight trips' pieces, which cover it and are the block's attention output attB on their rows.
-/
import proofs.«136125_j4853313044771_2_alg».proof.Proof.BodyValue
import proofs.«136125_j4853313044771_2_alg».proof.Proof.PayAttention

set_option maxRecDepth 16384
set_option maxHeartbeats 4000000

noncomputable section

open scoped BigOperators

namespace Cert.KernelIdeal.BodyValue

open Cert.KernelIdeal Cert.KernelIdeal.Gen Cert.KernelIdeal.GenP Cert.KernelIdeal.Pieces Cert.KernelIdeal.PayValue
open Idealize.ShloMosaic Idealize.ShloMosaic.TcCoe Idealize.ShloMosaic.Tactic Idealize.SL Idealize.SL.Sem
open Idealize.ShloMosaic.ValueIdx Cert.WindowAttn

/-- The whole buffer's box reads each index at itself. -/
theorem idx_whole3 (inb : ∀ a, (![0, 0, 0] : Fin 3 → ℕ) a + S32x49x384.size a ≤ S32x49x384.size a) (y : S32x49x384.Idx) :
    (Rect.unit (s := S32x49x384) ![0, 0, 0] S32x49x384.size inb).toLoadRect.idx y = y := by
  funext a
  match a with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by show 0 + 1 * (y 2).val = (y 2).val; omega)

theorem block_value (c : Dev nD) (t : Fin grid0.N) (arg1 : Memref sig .tc .vmem S32x49x384 .f32) (harg1 : arg1.IsWhole) (arg2 : Memref sig .tc .vmem S384x384 .f32) (harg2 : arg2.IsWhole) (arg3 : Memref sig .tc .vmem S384x384 .f32) (harg3 : arg3.IsWhole) (arg4 : Memref sig .tc .vmem S384x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S384x384 .f32) (harg8 : arg8.IsWhole) (arg9 : Memref sig .tc .vmem S1x384 .f32) (harg9 : arg9.IsWhole) (arg10 : Memref sig .tc .vmem S12x49x49 .f32) (harg10 : arg10.IsWhole) (arg11 : Memref sig .tc .vmem S64x49x49 .f32) (harg11 : arg11.IsWhole) (arg12 : Memref sig .tc .vmem S32x49x384 .f32) (harg12 : arg12.IsWhole) (arg13 : Memref sig .tc .vmem S32x49x384 .bf16) (harg13 : arg13.IsWhole) (arg14 : Memref sig .tc .vmem S32x49x384 .bf16) (harg14 : arg14.IsWhole) (arg15 : Memref sig .tc .vmem S32x49x384 .bf16) (harg15 : arg15.IsWhole)
    (x0 : Vec Ideal S32x49x384 .f32) (x1 : Vec Ideal S384x384 .f32) (x2 : Vec Ideal S384x384 .f32) (x3 : Vec Ideal S384x384 .f32) (x4 : Vec Ideal S1x384 .f32) (x5 : Vec Ideal S1x384 .f32) (x6 : Vec Ideal S1x384 .f32) (x7 : Vec Ideal S384x384 .f32) (x8 : Vec Ideal S1x384 .f32) (x9 : Vec Ideal S12x49x49 .f32) (x10 : Vec Ideal S64x49x49 .f32) (w : Fin 32) (n : Fin 49) (o : Fin 384) :
    out0_A_11 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix3 w n o)
      = outB x0 x1 x2 x3 x4 x5 x6 x7 x8 x9 x10 t.val w n o := by
  unfold out0_A_11
  rw [View.read_writes_eq_canon _ _ _ (cover0_A_11 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)]
  unfold kernelRun0_A
  dsimp only
  sl_unfold_run_names
  rw [View.canon_unit_zero hz3]
  simp only [load_whole (S := S32x49x384) _ _ _ hz3, load_whole (S := S12x49x49) _ _ _ hz3, load_whole (S := S64x49x49) _ _ _ hz3,
    load_whole (S := S384x384) _ _ _ hz2, load_whole (S := S1x384) _ _ _ hz2]
  rw [pay1_pay10_apply]
  unfold outB
  refine congrArg (· + x8 (ix2 (0 : Fin 1) o)) (Finset.sum_congr rfl fun cc _ => ?_)
  refine congrArg (· * x7 (ix2 o cc)) ?_
  rw [View.readCov_eq_canon']
  show View.canon _ ((Rect.unit (s := S32x49x384) ![0, 0, 0] S32x49x384.size _).toLoadRect.idx (ix3 w n cc)) = _
  rw [idx_whole3]
  refine View.canon_apply_of_pieces (Val := Elt Ideal) (S := S32x49x384) (e := .f32)
    (fun y : S32x49x384.Idx => attB x0 x1 x2 x3 x4 x5 x6 x9 x10 t.val (y 0) (y 1) (y 2)) _ ?_ (ix3 w n cc) ?_
  · exact pieces_before (F := Ideal) _ _ _ _ _ _ _ _ _ _ _ _ _ _ _ _ _ _ _ _ _ _ _ _ _ _ _ _ _ _ _ _ _ _ _ _ _ _ _ _ _ _ _
      (fun y : S32x49x384.Idx => attB x0 x1 x2 x3 x4 x5 x6 x9 x10 t.val (y 0) (y 1) (y 2))
      (trip_value pay2_apply t arg11 harg11 arg13 arg14 arg15 x0 x1 x2 x3 x4 x5 x6 x7 x8 x9 x10) _ le_rfl
  · exact View.cover_of_tiledL _ ![4, 49, 384] (by sl_kernel_rfl) _

end Cert.KernelIdeal.BodyValue

end
-- ==== Proof.BlockEq.lean ====
/-
  The output block of a grid point, as a function of the blocks the point loads, is the specification's result on the
  point's 32 windows: where the loaded blocks are the argument arrays' blocks — window w of the point is window
  32·t + w of the input, the three weight blocks and bias rows are the query, key and value parts of the fused
  projection, and the mask slot (t mod 2)·32 + w is the window's slot in the cycle of 64.
-/
import proofs.«136125_j4853313044771_2_alg».proof.Proof.BodyValue
import proofs.«136125_j4853313044771_2_alg».proof.Proof.Spec

noncomputable section

open scoped BigOperators

namespace Cert.KernelIdeal.BodyValue

open Cert.KernelIdeal Cert.KernelIdeal.BodyValue Cert.WindowAttn Idealize.ShloMosaic Idealize.ShloMosaic.ValueIdx

/-- Window 32·t + w has mask slot (t mod 2)·32 + w in the cycle of 64. -/
theorem slot_eq_cyc (tv : ℕ) (b : Fin 4096) (w : Fin 32) (hb : b.val = 32 * tv + w.val) : slot tv w = cyc b :=
  Fin.ext (by
    show tv % 2 * 32 + w.val = b.val % 64
    rw [hb]
    have := w.isLt
    omega)

/-- A projection of window w of the block is part s of the fused projection of the window it is among the 4096. -/
theorem proj_eq_lin (x : S4096x49x384.Idx → EReal) (W : S1152x384.Idx → EReal) (β : S1152.Idx → EReal)
    (x0 : Vec Ideal S32x49x384 .f32) (Wp : Vec Ideal S384x384 .f32) (br : Vec Ideal S1x384 .f32)
    (b : Fin 4096) (w : Fin 32) (s : Fin 3)
    (h0 : ∀ (n : Fin 49) (e : Fin 384), x0 (ix3 w n e) = x (ix3 b n e))
    (hW : ∀ c e : Fin 384, Wp (ix2 c e) = W (ix2 (qrow s c) e))
    (hb : ∀ c : Fin 384, br (ix2 (0 : Fin 1) c) = β (ix1 (qrow s c))) (n : Fin 49) (c : Fin 384) :
    proj x0 Wp br w n c = lin x W β b n (qrow s c) := by
  unfold proj lin
  rw [hb c]
  refine congrArg (· + β (ix1 (qrow s c))) (Finset.sum_congr rfl fun e _ => ?_)
  rw [h0 n e, hW c e]

theorem outB_eq_out (x : S4096x49x384.Idx → EReal) (W : S1152x384.Idx → EReal) (β : S1152.Idx → EReal) (bias : S12x49x49.Idx → EReal) (mask : S64x49x49.Idx → EReal) (P : S384x384.Idx → EReal) (π : S384.Idx → EReal)
    (x0 : Vec Ideal S32x49x384 .f32) (x1 x2 x3 : Vec Ideal S384x384 .f32) (x4 x5 x6 : Vec Ideal S1x384 .f32) (x7 : Vec Ideal S384x384 .f32) (x8 : Vec Ideal S1x384 .f32) (x9 : Vec Ideal S12x49x49 .f32) (x10 : Vec Ideal S64x49x49 .f32)
    (tv : ℕ) (htv : tv < 128) (B : Fin 32 → Fin 4096) (hB : ∀ w, (B w).val = 32 * tv + w.val)
    (h0 : ∀ (w : Fin 32) (n : Fin 49) (e : Fin 384), x0 (ix3 w n e) = x (ix3 (B w) n e))
    (h1 : ∀ c e : Fin 384, x1 (ix2 c e) = W (ix2 (qrow 0 c) e)) (h2 : ∀ c e : Fin 384, x2 (ix2 c e) = W (ix2 (qrow 1 c) e)) (h3 : ∀ c e : Fin 384, x3 (ix2 c e) = W (ix2 (qrow 2 c) e))
    (h4 : ∀ c : Fin 384, x4 (ix2 (0 : Fin 1) c) = β (ix1 (qrow 0 c))) (h5 : ∀ c : Fin 384, x5 (ix2 (0 : Fin 1) c) = β (ix1 (qrow 1 c))) (h6 : ∀ c : Fin 384, x6 (ix2 (0 : Fin 1) c) = β (ix1 (qrow 2 c)))
    (h7 : ∀ o c : Fin 384, x7 (ix2 o c) = P (ix2 o c)) (h8 : ∀ o : Fin 384, x8 (ix2 (0 : Fin 1) o) = π (ix1 o))
    (h9 : ∀ (h : Fin 12) (n m : Fin 49), x9 (ix3 h n m) = bias (ix3 h n m)) (h10 : ∀ (s : Fin 64) (n m : Fin 49), x10 (ix3 s n m) = mask (ix3 s n m))
    (w : Fin 32) (n : Fin 49) (o : Fin 384) :
    outB x0 x1 x2 x3 x4 x5 x6 x7 x8 x9 x10 tv w n o = out x W β bias mask P π (B w) n o := by
  unfold outB out
  rw [h8 o]
  refine congrArg (· + π (ix1 o)) (Finset.sum_congr rfl fun c _ => ?_)
  rw [h7 o c, att_eq_core]
  refine congrArg (· * P (ix2 o c)) ?_
  unfold attB
  have e1 : (fun n d => proj x0 x1 x4 w n (hcol (headOf c) d))
      = fun n d => lin x W β (B w) n (qrow 0 (hcol (headOf c) d)) :=
    funext fun n => funext fun d => proj_eq_lin x W β x0 x1 x4 (B w) w 0 (h0 w) h1 h4 n _
  have e2 : (fun m d => proj x0 x2 x5 w m (hcol (headOf c) d))
      = fun m d => lin x W β (B w) m (qrow 1 (hcol (headOf c) d)) :=
    funext fun m => funext fun d => proj_eq_lin x W β x0 x2 x5 (B w) w 1 (h0 w) h2 h5 m _
  have e3 : (fun m d => proj x0 x3 x6 w m (hcol (headOf c) d))
      = fun m d => lin x W β (B w) m (qrow 2 (hcol (headOf c) d)) :=
    funext fun m => funext fun d => proj_eq_lin x W β x0 x3 x6 (B w) w 2 (h0 w) h3 h6 m _
  have e4 : (fun n m => x9 (ix3 (headOf c) n m)) = fun n m => bias (ix3 (headOf c) n m) :=
    funext fun n => funext fun m => h9 _ n m
  have e5 : (fun n m => x10 (ix3 (slot tv w) n m)) = fun n m => mask (ix3 (cyc (B w)) n m) := by
    rw [slot_eq_cyc tv (B w) w (hB w)]
    exact funext fun n => funext fun m => h10 _ n m
  rw [e1, e2, e3, e4, e5]

end Cert.KernelIdeal.BodyValue

end
-- ==== Proof.Entry.lean ====
/-
  What the kernel's windows hold when the region is entered, as terms of the argument arrays: the three 384-row parts
  of the fused weight (rows s·384 … s·384+383) and of the fused bias, written as one row; the output bias as one row;
  the relative-position bias gathered from the table through the index array and laid out as head × token × token.
  And those terms read at an index.
-/
import proofs.«136125_j4853313044771_2_alg».proof.Proof.Gen.KernelIdeal.Frame.Runs
import proofs.«136125_j4853313044771_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.ShloMosaic.Tactic
open Idealize.ShloMosaic.StableHlo Idealize.SL Idealize.SL.Sem Idealize.ShloMosaic.ValueIdx Cert.WindowAttn

variable {F : FTy → Type} [FloatOps F]

/-- The bias array the kernel is handed: the table's rows picked by the index array (an index below zero taken from
    the table's end), as token × token × head, transposed to head × token × token. -/
def biasOf (x6 : (⟨S169x12, .f32⟩ : BufTy).Contents (Elt F)) (x7 : (⟨S49x49, .i32⟩ : BufTy).Contents (Elt F)) :
    (⟨S12x49x49, .f32⟩ : BufTy).Contents (Elt F) :=
  transpose S12x49x49 [2, 0, 1]
    (shapeCast S49x49x12
      (Host.gather gather_S169x12_S2401x1_S2401x12_1_0_n_n_0_1_112 x6
        (broadcastInDim S2401x1 ![0] bcast_S2401_S2401x1_0
          (select
            (cmpi CmpIPredicate.slt (shapeCast S2401 x7 shapeCasts_S49x49_S2401)
              (broadcastInDim S2401 ![] bcast_S_S2401 (constantI S_ 32 0#32)))
            (addi (shapeCast S2401 x7 shapeCasts_S49x49_S2401)
              (broadcastInDim S2401 ![] bcast_S_S2401 (constantI S_ 32 169#32)))
            (shapeCast S2401 x7 shapeCasts_S49x49_S2401))))
      shapeCasts_S2401x12_S49x49x12)
    transposes_S49x49x12_S12x49x49_2_0_1

variable (m : (ℓ : Loc nD τ sig) → Buf (Elt F) ℓ)

/-! ## The arrays as the region finds them -/

theorem V_wq (c : Dev nD) : V m c main_v0
    = extractStridedSlice S384x384 ![0, 0] (m ((c : Thread nD τ).loc main_arg2)) slices_S1152x384_S384x384_0_0 := by
  unfold V; after_results
theorem V_wk (c : Dev nD) : V m c main_v1
    = extractStridedSlice S384x384 ![384, 0] (m ((c : Thread nD τ).loc main_arg2)) slices_S1152x384_S384x384_384_0 := by
  unfold V; after_results
theorem V_wv (c : Dev nD) : V m c main_v2
    = extractStridedSlice S384x384 ![768, 0] (m ((c : Thread nD τ).loc main_arg2)) slices_S1152x384_S384x384_768_0 := by
  unfold V; after_results
theorem V_bq (c : Dev nD) : V m c main_v6
    = shapeCast S1x384 (extractStridedSlice S384 ![0] (m ((c : Thread nD τ).loc main_arg3)) slices_S1152_S384_0) shapeCasts_S384_S1x384 := by
  unfold V; after_results; rfl
theorem V_bk (c : Dev nD) : V m c main_v7
    = shapeCast S1x384 (extractStridedSlice S384 ![384] (m ((c : Thread nD τ).loc main_arg3)) slices_S1152_S384_384) shapeCasts_S384_S1x384 := by
  unfold V; after_results; rfl
theorem V_bv (c : Dev nD) : V m c main_v8
    = shapeCast S1x384 (extractStridedSlice S384 ![768] (m ((c : Thread nD τ).loc main_arg3)) slices_S1152_S384_768) shapeCasts_S384_S1x384 := by
  unfold V; after_results; rfl
theorem V_pb (c : Dev nD) : V m c main_v9
    = shapeCast S1x384 (m ((c : Thread nD τ).loc main_arg5)) shapeCasts_S384_S1x384 := by
  unfold V; after_results; rfl
theorem V_bias (c : Dev nD) : V m c main_v19
    = biasOf (m ((c : Thread nD τ).loc main_arg6)) (m ((c : Thread nD τ).loc main_arg7)) := by
  unfold V; after_results; rfl

/-! ## Those terms read at an index -/

/-- Row c of part s of the fused weight is row s·384 + c of the whole. -/
theorem weight_part_apply {α : Type} (s : Fin 3) (W : S1152x384.Idx → α)
    (h : S1152x384.Slices ![s.val * 384, 0] S384x384) (c e : Fin 384) :
    extractStridedSlice S384x384 ![s.val * 384, 0] W h (ix2 c e) = W (ix2 (qrow s c) e) :=
  slice2_axis0_apply (s.val * 384) W h c e (qrow s c) rfl

/-- Entry c of part s of the fused bias, written as one row, is entry s·384 + c of the whole. -/
theorem bias_part_apply {α : Type} (s : Fin 3) (β : S1152.Idx → α)
    (h : S1152.Slices ![s.val * 384] S384) (c : Fin 384) :
    shapeCast S1x384 (extractStridedSlice S384 ![s.val * 384] β h) shapeCasts_S384_S1x384 (ix2 (0 : Fin 1) c)
      = β (ix1 (qrow s c)) := by
  refine (shapeCast_a_1a_apply _ shapeCasts_S384_S1x384 (0 : Fin 1) c).trans ?_
  exact extractStridedSlice_apply _ _ h (ix1 c) (ix1 (qrow s c)) (fun a => by match a with | ⟨0, _⟩ => rfl)

/-- The output bias written as one row. -/
theorem row_apply {α : Type} (π : S384.Idx → α) (o : Fin 384) :
    shapeCast S1x384 π shapeCasts_S384_S1x384 (ix2 (0 : Fin 1) o) = π (ix1 o) :=
  shapeCast_a_1a_apply _ shapeCasts_S384_S1x384 (0 : Fin 1) o

end Cert.KernelIdeal.Entry

end
-- ==== Proof.KernelResult.lean ====
/-
  The kernel's result array is the specification's.  Grid point t writes back block t — windows 32t … 32t+31 — and what it
  writes back is the body's output block of the blocks it loaded: the point's 32 windows of x, the three 384-row parts
  of the fused weight and bias, the output weight and bias, the gathered bias, the 64 masks.  Window w of block t is
  window 32t + w of the array, whose mask slot (32t + w) mod 64 is (t mod 2)·32 + w.  The 128 blocks tile the array.
-/
import proofs.«136125_j4853313044771_2_alg».proof.Proof.BlockValue
import proofs.«136125_j4853313044771_2_alg».proof.Proof.BlockEq
import proofs.«136125_j4853313044771_2_alg».proof.Proof.KernelIdealValue
import proofs.«136125_j4853313044771_2_alg».proof.Proof.Entry

set_option maxRecDepth 16384
set_option maxHeartbeats 2000000

noncomputable section

open scoped BigOperators

namespace Cert.KernelIdeal.Result

open Cert.KernelIdeal Cert.KernelIdeal.Gen Cert.KernelIdeal.GenP Cert.KernelIdeal.ValueP Cert.KernelIdeal.Entry
open Cert.KernelIdeal.BodyValue Cert.WindowAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's result of the argument arrays as launched, the bias gathered as the host operations do. -/
def G (c : Dev nD) : S4096x49x384.Idx → EReal :=
  result (m ((c : Thread nD τ).loc main_arg0)) (m ((c : Thread nD τ).loc main_arg2)) (m ((c : Thread nD τ).loc main_arg3))
    (biasOf (F := Ideal) (m ((c : Thread nD τ).loc main_arg6)) (m ((c : Thread nD τ).loc main_arg7)))
    (m ((c : Thread nD τ).loc main_arg1)) (m ((c : Thread nD τ).loc main_arg4)) (m ((c : Thread nD τ).loc main_arg5))

/-! ## The index maps, decided over the grid -/

theorem idx_facts : ∀ t : Fin cfg0.N,
    win0_11.index t = ![t.val, 0, 0] ∧ win0_0.index t = ![t.val, 0, 0]
    ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![0, 0]
    ∧ win0_9.index t = ![0, 0, 0] ∧ win0_10.index t = ![0, 0, 0] :=
  (by decide +kernel : ∀ t : Fin grid0.N, _)

theorem t_lt (t : Fin cfg0.N) : t.val < 128 := Nat.lt_of_lt_of_le t.isLt (Nat.le_of_eq N_0)

/-- Window w of block t, among the 4096. -/
def win (t : Fin cfg0.N) (w : Fin 32) : Fin 4096 := ⟨32 * t.val + w.val, by have := t_lt t; have := w.isLt; omega⟩

/-! ## The blocks the body loads, read at an index -/

theorem emb0 (t : Fin cfg0.N) (w : Fin 32) (n : Fin 49) (e : Fin 384) :
    ((cfg0.win 0).blk t).view.emb (ix3 w n e) = ix3 (win t w) n e := by
  obtain ⟨-, e0, -⟩ := idx_facts t
  funext a; apply Fin.ext
  match a with
  | ⟨0, _⟩ => show win0_0.index t (0 : Fin 3) * 32 + 1 * w.val = 32 * t.val + w.val; rw [e0]; show t.val * 32 + 1 * w.val = _; omega
  | ⟨1, _⟩ => show win0_0.index t (1 : Fin 3) * 49 + 1 * n.val = n.val; rw [e0]; show 0 * 49 + 1 * n.val = _; omega
  | ⟨2, _⟩ => show win0_0.index t (2 : Fin 3) * 384 + 1 * e.val = e.val; rw [e0]; show 0 * 384 + 1 * e.val = _; omega

theorem emb11 (t : Fin cfg0.N) (w : Fin 32) (n : Fin 49) (o : Fin 384) :
    ((cfg0.win 11).blk t).view.emb (ix3 w n o) = ix3 (win t w) n o := by
  obtain ⟨e11, -⟩ := idx_facts t
  funext a; apply Fin.ext
  match a with
  | ⟨0, _⟩ => show win0_11.index t (0 : Fin 3) * 32 + 1 * w.val = 32 * t.val + w.val; rw [e11]; show t.val * 32 + 1 * w.val = _; omega
  | ⟨1, _⟩ => show win0_11.index t (1 : Fin 3) * 49 + 1 * n.val = n.val; rw [e11]; show 0 * 49 + 1 * n.val = _; omega
  | ⟨2, _⟩ => show win0_11.index t (2 : Fin 3) * 384 + 1 * o.val = o.val; rw [e11]; show 0 * 384 + 1 * o.val = _; omega

theorem emb1 (t : Fin cfg0.N) (a : Fin 384) (b : Fin 384) :
    ((cfg0.win 1).blk t).view.emb (ix2 a b) = ix2 a b := by
  have e := (idx_facts t).2.2.1
  funext x; apply Fin.ext
  match x with
  | ⟨0, _⟩ => show win0_1.index t (0 : Fin 2) * 384 + 1 * a.val = a.val; rw [e]; show 0 * 384 + 1 * a.val = _; omega
  | ⟨1, _⟩ => show win0_1.index t (1 : Fin 2) * 384 + 1 * b.val = b.val; rw [e]; show 0 * 384 + 1 * b.val = _; omega

theorem emb2 (t : Fin cfg0.N) (a : Fin 384) (b : Fin 384) :
    ((cfg0.win 2).blk t).view.emb (ix2 a b) = ix2 a b := by
  have e := (idx_facts t).2.2.2.1
  funext x; apply Fin.ext
  match x with
  | ⟨0, _⟩ => show win0_2.index t (0 : Fin 2) * 384 + 1 * a.val = a.val; rw [e]; show 0 * 384 + 1 * a.val = _; omega
  | ⟨1, _⟩ => show win0_2.index t (1 : Fin 2) * 384 + 1 * b.val = b.val; rw [e]; show 0 * 384 + 1 * b.val = _; omega

theorem emb3 (t : Fin cfg0.N) (a : Fin 384) (b : Fin 384) :
    ((cfg0.win 3).blk t).view.emb (ix2 a b) = ix2 a b := by
  have e := (idx_facts t).2.2.2.2.1
  funext x; apply Fin.ext
  match x with
  | ⟨0, _⟩ => show win0_3.index t (0 : Fin 2) * 384 + 1 * a.val = a.val; rw [e]; show 0 * 384 + 1 * a.val = _; omega
  | ⟨1, _⟩ => show win0_3.index t (1 : Fin 2) * 384 + 1 * b.val = b.val; rw [e]; show 0 * 384 + 1 * b.val = _; omega

theorem emb4 (t : Fin cfg0.N) (a : Fin 1) (b : Fin 384) :
    ((cfg0.win 4).blk t).view.emb (ix2 a b) = ix2 a b := by
  have e := (idx_facts t).2.2.2.2.2.1
  funext x; apply Fin.ext
  match x with
  | ⟨0, _⟩ => show win0_4.index t (0 : Fin 2) * 1 + 1 * a.val = a.val; rw [e]; show 0 * 1 + 1 * a.val = _; omega
  | ⟨1, _⟩ => show win0_4.index t (1 : Fin 2) * 384 + 1 * b.val = b.val; rw [e]; show 0 * 384 + 1 * b.val = _; omega

theorem emb5 (t : Fin cfg0.N) (a : Fin 1) (b : Fin 384) :
    ((cfg0.win 5).blk t).view.emb (ix2 a b) = ix2 a b := by
  have e := (idx_facts t).2.2.2.2.2.2.1
  funext x; apply Fin.ext
  match x with
  | ⟨0, _⟩ => show win0_5.index t (0 : Fin 2) * 1 + 1 * a.val = a.val; rw [e]; show 0 * 1 + 1 * a.val = _; omega
  | ⟨1, _⟩ => show win0_5.index t (1 : Fin 2) * 384 + 1 * b.val = b.val; rw [e]; show 0 * 384 + 1 * b.val = _; omega

theorem emb6 (t : Fin cfg0.N) (a : Fin 1) (b : Fin 384) :
    ((cfg0.win 6).blk t).view.emb (ix2 a b) = ix2 a b := by
  have e := (idx_facts t).2.2.2.2.2.2.2.1
  funext x; apply Fin.ext
  match x with
  | ⟨0, _⟩ => show win0_6.index t (0 : Fin 2) * 1 + 1 * a.val = a.val; rw [e]; show 0 * 1 + 1 * a.val = _; omega
  | ⟨1, _⟩ => show win0_6.index t (1 : Fin 2) * 384 + 1 * b.val = b.val; rw [e]; show 0 * 384 + 1 * b.val = _; omega

theorem emb7 (t : Fin cfg0.N) (a : Fin 384) (b : Fin 384) :
    ((cfg0.win 7).blk t).view.emb (ix2 a b) = ix2 a b := by
  have e := (idx_facts t).2.2.2.2.2.2.2.2.1
  funext x; apply Fin.ext
  match x with
  | ⟨0, _⟩ => show win0_7.index t (0 : Fin 2) * 384 + 1 * a.val = a.val; rw [e]; show 0 * 384 + 1 * a.val = _; omega
  | ⟨1, _⟩ => show win0_7.index t (1 : Fin 2) * 384 + 1 * b.val = b.val; rw [e]; show 0 * 384 + 1 * b.val = _; omega

theorem emb8 (t : Fin cfg0.N) (a : Fin 1) (b : Fin 384) :
    ((cfg0.win 8).blk t).view.emb (ix2 a b) = ix2 a b := by
  have e := (idx_facts t).2.2.2.2.2.2.2.2.2.1
  funext x; apply Fin.ext
  match x with
  | ⟨0, _⟩ => show win0_8.index t (0 : Fin 2) * 1 + 1 * a.val = a.val; rw [e]; show 0 * 1 + 1 * a.val = _; omega
  | ⟨1, _⟩ => show win0_8.index t (1 : Fin 2) * 384 + 1 * b.val = b.val; rw [e]; show 0 * 384 + 1 * b.val = _; omega

theorem emb9 (t : Fin cfg0.N) (a : Fin 12) (b : Fin 49) (d : Fin 49) :
    ((cfg0.win 9).blk t).view.emb (ix3 a b d) = ix3 a b d := by
  have e := (idx_facts t).2.2.2.2.2.2.2.2.2.2.1
  funext x; apply Fin.ext
  match x with
  | ⟨0, _⟩ => show win0_9.index t (0 : Fin 3) * 12 + 1 * a.val = a.val; rw [e]; show 0 * 12 + 1 * a.val = _; omega
  | ⟨1, _⟩ => show win0_9.index t (1 : Fin 3) * 49 + 1 * b.val = b.val; rw [e]; show 0 * 49 + 1 * b.val = _; omega
  | ⟨2, _⟩ => show win0_9.index t (2 : Fin 3) * 49 + 1 * d.val = d.val; rw [e]; show 0 * 49 + 1 * d.val = _; omega

theorem emb10 (t : Fin cfg0.N) (a : Fin 64) (b : Fin 49) (d : Fin 49) :
    ((cfg0.win 10).blk t).view.emb (ix3 a b d) = ix3 a b d := by
  have e := (idx_facts t).2.2.2.2.2.2.2.2.2.2.2
  funext x; apply Fin.ext
  match x with
  | ⟨0, _⟩ => show win0_10.index t (0 : Fin 3) * 64 + 1 * a.val = a.val; rw [e]; show 0 * 64 + 1 * a.val = _; omega
  | ⟨1, _⟩ => show win0_10.index t (1 : Fin 3) * 49 + 1 * b.val = b.val; rw [e]; show 0 * 49 + 1 * b.val = _; omega
  | ⟨2, _⟩ => show win0_10.index t (2 : Fin 3) * 49 + 1 * d.val = d.val; rw [e]; show 0 * 49 + 1 * d.val = _; omega

/-- Rows s·384 … of the fused weight and bias, at literal offsets. -/
theorem wpart (s : Fin 3) {o : ℕ} (ho : o = s.val * 384) (W : S1152x384.Idx → EReal)
    (h : S1152x384.Slices ![o, 0] S384x384) (a e : Fin 384) :
    extractStridedSlice S384x384 ![o, 0] W h (ix2 a e) = W (ix2 (qrow s a) e) := by
  subst ho; exact weight_part_apply s W h a e
theorem bpart (s : Fin 3) {o : ℕ} (ho : o = s.val * 384) (β : S1152.Idx → EReal)
    (h : S1152.Slices ![o] S384) (a : Fin 384) :
    shapeCast S1x384 (extractStridedSlice S384 ![o] β h) shapeCasts_S384_S1x384 (ix2 (0 : Fin 1) a) = β (ix1 (qrow s a)) := by
  subst ho; exact bias_part_apply s β h a

/-! ## What point t writes back is block t of the specification's result -/

theorem flushed_eq (c : Dev nD) (t : Fin cfg0.N) :
    (dats m 0 c).flushed 11 t = ((cfg0.win 11).blk t).view.read (Elt Ideal) (G m c) := by
  rw [flushed11]
  funext y
  obtain ⟨w, n, o, rfl⟩ : ∃ (w : Fin 32) (n : Fin 49) (o : Fin 384), y = ix3 w n o := ⟨y 0, y 1, y 2, eq_ix3 y⟩
  show outsAt0 m c t (ix3 w n o) = G m c (((cfg0.win 11).blk t).view.emb (ix3 w n o))
  rw [emb11]
  unfold outsAt0
  rw [block_value]
  refine outB_eq_out (m ((c : Thread nD τ).loc main_arg0)) (m ((c : Thread nD τ).loc main_arg2)) (m ((c : Thread nD τ).loc main_arg3))
    (biasOf (F := Ideal) (m ((c : Thread nD τ).loc main_arg6)) (m ((c : Thread nD τ).loc main_arg7)))
    (m ((c : Thread nD τ).loc main_arg1)) (m ((c : Thread nD τ).loc main_arg4)) (m ((c : Thread nD τ).loc main_arg5))
    _ _ _ _ _ _ _ _ _ _ _ t.val (t_lt t) (win t) (fun _ => rfl) ?_ ?_ ?_ ?_ ?_ ?_ ?_ ?_ ?_ ?_ ?_ w n o
  · intro w n e
    show V m c main_arg0 (((cfg0.win 0).blk t).view.emb (ix3 w n e)) = _
    rw [emb0, V_main_arg0]
  · intro a e
    show V m c main_v0 (((cfg0.win 1).blk t).view.emb (ix2 a e)) = _
    rw [emb1, V_wq]; exact wpart 0 rfl _ _ a e
  · intro a e
    show V m c main_v1 (((cfg0.win 2).blk t).view.emb (ix2 a e)) = _
    rw [emb2, V_wk]; exact wpart 1 rfl _ _ a e
  · intro a e
    show V m c main_v2 (((cfg0.win 3).blk t).view.emb (ix2 a e)) = _
    rw [emb3, V_wv]; exact wpart 2 rfl _ _ a e
  · intro a
    show V m c main_v6 (((cfg0.win 4).blk t).view.emb (ix2 (0 : Fin 1) a)) = _
    rw [emb4, V_bq]; exact bpart 0 rfl _ _ a
  · intro a
    show V m c main_v7 (((cfg0.win 5).blk t).view.emb (ix2 (0 : Fin 1) a)) = _
    rw [emb5, V_bk]; exact bpart 1 rfl _ _ a
  · intro a
    show V m c main_v8 (((cfg0.win 6).blk t).view.emb (ix2 (0 : Fin 1) a)) = _
    rw [emb6, V_bv]; exact bpart 2 rfl _ _ a
  · intro o' a
    show V m c main_arg4 (((cfg0.win 7).blk t).view.emb (ix2 o' a)) = _
    rw [emb7, V_main_arg4]
  · intro o'
    show V m c main_v9 (((cfg0.win 8).blk t).view.emb (ix2 (0 : Fin 1) o')) = _
    rw [emb8, V_pb]; exact row_apply _ o'
  · intro h n' m'
    show V m c main_v19 (((cfg0.win 9).blk t).view.emb (ix3 h n' m')) = _
    rw [emb9, V_bias]
  · intro s n' m'
    show V m c main_arg1 (((cfg0.win 10).blk t).view.emb (ix3 s n' m')) = _
    rw [emb10, V_main_arg1]

/-! ## The 128 blocks tile the array -/

theorem mem_blk (t : Fin cfg0.N) (i : S4096x49x384.Idx) :
    i ∈ ((cfg0.win 11).blk t).view.set ↔ ∀ a : Fin 3, win0_11.index t a * S32x49x384.size a ≤ (i a).val
      ∧ (i a).val < win0_11.index t a * S32x49x384.size a + S32x49x384.size a := by
  show i ∈ ((View.whole main_v20).slice (win0_11.rect t)).set ↔ _
  rw [View.set_slice_whole, Rect.mem_set_unit]
  exact Iff.rfl

theorem cover (i : S4096x49x384.Idx) :
    ∃ t : Fin cfg0.N, (cfg0.win 11).flush t = true ∧ i ∈ ((cfg0.win 11).blk t).view.set := by
  have hi0 : (i 0).val < 4096 := (i 0).isLt
  have hi1 : (i 1).val < 49 := (i 1).isLt
  have hi2 : (i 2).val < 384 := (i 2).isLt
  have hN : cfg0.N = 128 := N_0
  refine ⟨⟨(i 0).val / 32, by rw [hN]; omega⟩, flush0_11 _, ?_⟩
  rw [mem_blk]
  have e := (idx_facts ⟨(i 0).val / 32, by rw [hN]; omega⟩).1
  intro a
  match a with
  | ⟨0, _⟩ =>
    show win0_11.index _ (0 : Fin 3) * 32 ≤ (i 0).val ∧ (i 0).val < win0_11.index _ (0 : Fin 3) * 32 + 32
    rw [e]; show (i 0).val / 32 * 32 ≤ (i 0).val ∧ (i 0).val < (i 0).val / 32 * 32 + 32; omega
  | ⟨1, _⟩ =>
    show win0_11.index _ (1 : Fin 3) * 49 ≤ (i 1).val ∧ (i 1).val < win0_11.index _ (1 : Fin 3) * 49 + 49
    rw [e]; show 0 * 49 ≤ (i 1).val ∧ (i 1).val < 0 * 49 + 49; omega
  | ⟨2, _⟩ =>
    show win0_11.index _ (2 : Fin 3) * 384 ≤ (i 2).val ∧ (i 2).val < win0_11.index _ (2 : Fin 3) * 384 + 384
    rw [e]; show 0 * 384 ≤ (i 2).val ∧ (i 2).val < 0 * 384 + 384; omega

/-! ## The array after the run, and the run -/

theorem final (c : Dev nD) : (dats m 0 c).arrAt 11 cfg0.N = G m c :=
  (dats m 0 c).arrAt_eq_of_cover 11 (G m c) (fun t _ => flushed_eq m c t) cover

/-- The kernel's run with its result named: the specification's result of the arguments, which end unchanged. -/
theorem run : θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Result

end
-- ==== Proof.RefParts.lean ====
/-
  The reference's attention, read stage by stage at an index, is the specification: the fused projection cut into
  query, key and value heads; the scores with bias and mask; the row maximum, exponentials and their sum; the weighted
  sum of the values; the output projection.  Each stage is the generated reading of one operation, with the index it
  reads spelled as window, head and token coordinates.
-/
import proofs.«136125_j4853313044771_2_alg».proof.Proof.Gen.ReferenceIdeal.Read
import proofs.«136125_j4853313044771_2_alg».proof.Proof.Spec
import Idealize.ShloMosaic.Lib.ValueIdx
import Idealize.ShloMosaic.PureOps.Ideal.Laws

set_option maxRecDepth 8192

noncomputable section

open scoped BigOperators

namespace Cert.ReferenceIdeal.RefValue

open Cert.ReferenceIdeal Cert.ReferenceIdeal.Read Idealize.ShloMosaic Idealize.ShloMosaic.ValueIdx Cert.WindowAttn

variable (x0 : (⟨S4096x49x384, .f32⟩ : BufTy).Contents (Elt Ideal)) (x1 : (⟨S64x49x49, .f32⟩ : BufTy).Contents (Elt Ideal))
  (x2 : (⟨S1152x384, .f32⟩ : BufTy).Contents (Elt Ideal)) (x3 : (⟨S1152, .f32⟩ : BufTy).Contents (Elt Ideal))
  (x4 : (⟨S384x384, .f32⟩ : BufTy).Contents (Elt Ideal)) (x5 : (⟨S384, .f32⟩ : BufTy).Contents (Elt Ideal))
  (x6 : (⟨S169x12, .f32⟩ : BufTy).Contents (Elt Ideal)) (x7 : (⟨S49x49, .i32⟩ : BufTy).Contents (Elt Ideal))

/-! ## The fused projection and its three parts -/

/-- The fused projection before it is cut into heads. -/
theorem fused_apply (b : Fin 4096) (n : Fin 49) (o : Fin 1152) :
    val_main_v3 (F := Ideal) x0 x2 x3 (ix3 b n o) = lin x0 x2 x3 b n o := by
  rw [val_main_v3_apply, val_main_v0_apply, val_main_v2_apply, val_main_v1_apply]
  show (∑ k : Fin 384, x0 (lidx_main_v0 (ix3 b n o) k) * x2 (ridx_main_v0 (ix3 b n o) k)) + x3 (idx_main_v1 (idx_main_v2 (ix3 b n o))) = _
  unfold lin
  have e1 : ∀ k : Fin 384, lidx_main_v0 (ix3 b n o) k = ix3 b n k := fun k => funext fun a => Fin.ext (by
    match a with | ⟨0, _⟩ => rfl | ⟨1, _⟩ => rfl | ⟨2, _⟩ => rfl)
  have e2 : ∀ k : Fin 384, ridx_main_v0 (ix3 b n o) k = ix2 o k := fun k => funext fun a => Fin.ext (by
    match a with | ⟨0, _⟩ => rfl | ⟨1, _⟩ => rfl)
  have e3 : idx_main_v1 (idx_main_v2 (ix3 b n o)) = ix1 o := funext fun a => Fin.ext (by
    match a with | ⟨0, _⟩ => rfl)
  simp only [e1, e2, e3]

/-- Head h, token n, coordinate d of part s sits at row n, column s·384 + h·32 + d of the fused projection. -/
theorem part_index (s : Fin 3) (b : Fin 4096) (h : Fin 12) (n : Fin 49) (d : Fin 32) :
    idx_main_v4 (idx_main_v5 (ix5 s b h n d)) = ix3 b n (qrow s (hcol h d)) := by
  have hs := s.isLt; have hb := b.isLt; have hh := h.isLt; have hn := n.isLt; have hd := d.isLt
  funext a
  match a with
  | ⟨0, _⟩ => exact Fin.ext (by
      show (((((b.val * 49 + n.val) * 3 + s.val) * 12 + h.val) * 32 + d.val) / 56448 = b.val); omega)
  | ⟨1, _⟩ => exact Fin.ext (by
      show (((((b.val * 49 + n.val) * 3 + s.val) * 12 + h.val) * 32 + d.val) / 1152 % 49 = n.val); omega)
  | ⟨2, _⟩ => exact Fin.ext (by
      show (((((b.val * 49 + n.val) * 3 + s.val) * 12 + h.val) * 32 + d.val) % 1152 = s.val * 384 + (h.val * 32 + d.val)); omega)

theorem heads_apply (s : Fin 3) (b : Fin 4096) (h : Fin 12) (n : Fin 49) (d : Fin 32) :
    val_main_v5 (F := Ideal) x0 x2 x3 (ix5 s b h n d) = lin x0 x2 x3 b n (qrow s (hcol h d)) := by
  rw [val_main_v5_apply, val_main_v4_apply, part_index, fused_apply]

/-- Dropping the unit axis of a one-part slice keeps window, head, token and coordinate. -/
theorem unit_index (b : Fin 4096) (h : Fin 12) (n : Fin 49) (d : Fin 32) :
    idx_main_v7 (ix4 b h n d) = ix5 (0 : Fin 1) b h n d := by
  have hb := b.isLt; have hh := h.isLt; have hn := n.isLt; have hd := d.isLt
  funext a
  match a with
  | ⟨0, _⟩ => rfl
  | ⟨1, _⟩ => exact Fin.ext (by show ((((b.val * 12 + h.val) * 49 + n.val) * 32 + d.val) / 18816 % 4096 = b.val); omega)
  | ⟨2, _⟩ => exact Fin.ext (by show ((((b.val * 12 + h.val) * 49 + n.val) * 32 + d.val) / 1568 % 12 = h.val); omega)
  | ⟨3, _⟩ => exact Fin.ext (by show ((((b.val * 12 + h.val) * 49 + n.val) * 32 + d.val) / 32 % 49 = n.val); omega)
  | ⟨4, _⟩ => exact Fin.ext (by show ((((b.val * 12 + h.val) * 49 + n.val) * 32 + d.val) % 32 = d.val); omega)

theorem query_apply (b : Fin 4096) (h : Fin 12) (n : Fin 49) (d : Fin 32) :
    val_main_v7 (F := Ideal) x0 x2 x3 (ix4 b h n d) = lin x0 x2 x3 b n (qrow 0 (hcol h d)) := by
  rw [val_main_v7_apply, unit_index, val_main_v6_apply]
  have e : idx_main_v6 (ix5 (0 : Fin 1) b h n d) = ix5 (0 : Fin 3) b h n d := funext fun a => Fin.ext (by
    match a with | ⟨0, _⟩ => rfl | ⟨1, _⟩ => rfl | ⟨2, _⟩ => rfl | ⟨3, _⟩ => rfl | ⟨4, _⟩ => rfl)
  rw [e, heads_apply]

theorem key_apply (b : Fin 4096) (h : Fin 12) (n : Fin 49) (d : Fin 32) :
    val_main_v9 (F := Ideal) x0 x2 x3 (ix4 b h n d) = lin x0 x2 x3 b n (qrow 1 (hcol h d)) := by
  rw [val_main_v9_apply, show idx_main_v9 (ix4 b h n d) = ix5 (0 : Fin 1) b h n d from unit_index b h n d, val_main_v8_apply]
  have e : idx_main_v8 (ix5 (0 : Fin 1) b h n d) = ix5 (1 : Fin 3) b h n d := funext fun a => Fin.ext (by
    match a with | ⟨0, _⟩ => rfl | ⟨1, _⟩ => rfl | ⟨2, _⟩ => rfl | ⟨3, _⟩ => rfl | ⟨4, _⟩ => rfl)
  rw [e, heads_apply]

theorem value_apply (b : Fin 4096) (h : Fin 12) (n : Fin 49) (d : Fin 32) :
    val_main_v11 (F := Ideal) x0 x2 x3 (ix4 b h n d) = lin x0 x2 x3 b n (qrow 2 (hcol h d)) := by
  rw [val_main_v11_apply, show idx_main_v11 (ix4 b h n d) = ix5 (0 : Fin 1) b h n d from unit_index b h n d, val_main_v10_apply]
  have e : idx_main_v10 (ix5 (0 : Fin 1) b h n d) = ix5 (2 : Fin 3) b h n d := funext fun a => Fin.ext (by
    match a with | ⟨0, _⟩ => rfl | ⟨1, _⟩ => rfl | ⟨2, _⟩ => rfl | ⟨3, _⟩ => rfl | ⟨4, _⟩ => rfl)
  rw [e, heads_apply]

end Cert.ReferenceIdeal.RefValue

end
-- ==== Proof.RefScore.lean ====
/-
  The reference's scores, softmax, weighted sum of the values and output projection, read at an index, are the
  specification's: the score adds the head's bias and the mask of the window's slot in the cycle of 64; the row maximum
  is a fold of max from the word of −∞ (and the extra max against −∞ changes nothing, the fold being at least its
  start); the row sum starts from 0.
-/
import proofs.«136125_j4853313044771_2_alg».proof.Proof.RefParts
import Idealize.ShloMosaic.PureOps.Reduce

set_option maxRecDepth 8192

noncomputable section

open scoped BigOperators

namespace Cert.ReferenceIdeal.RefValue

open Cert.ReferenceIdeal Cert.ReferenceIdeal.Read Idealize.ShloMosaic Idealize.ShloMosaic.ValueIdx Cert.WindowAttn

variable (x0 : (⟨S4096x49x384, .f32⟩ : BufTy).Contents (Elt Ideal)) (x1 : (⟨S64x49x49, .f32⟩ : BufTy).Contents (Elt Ideal))
  (x2 : (⟨S1152x384, .f32⟩ : BufTy).Contents (Elt Ideal)) (x3 : (⟨S1152, .f32⟩ : BufTy).Contents (Elt Ideal))
  (x4 : (⟨S384x384, .f32⟩ : BufTy).Contents (Elt Ideal)) (x5 : (⟨S384, .f32⟩ : BufTy).Contents (Elt Ideal))
  (x6 : (⟨S169x12, .f32⟩ : BufTy).Contents (Elt Ideal)) (x7 : (⟨S49x49, .i32⟩ : BufTy).Contents (Elt Ideal))

/-- The relative-position bias as the reference's host operations compute it from the table and the index array. -/
abbrev refBias : (⟨3, ![12, 49, 49]⟩ : Shape).Idx → EReal := val_main_v24 (F := Ideal) x6 x7

/-! ## Scores -/

/-- The product of queries and keys, scaled. -/
theorem scaled_apply (b : Fin 4096) (h : Fin 12) (n m : Fin 49) :
    val_main_v14 (F := Ideal) x0 x2 x3 (ix4 b h n m)
      = (∑ d : Fin 32, lin x0 x2 x3 b n (qrow 0 (hcol h d)) * lin x0 x2 x3 b m (qrow 1 (hcol h d))) * σ := by
  rw [val_main_v14_apply, val_main_v12_apply, val_main_v13_apply, val_main_cst_apply]
  have el : ∀ d : Fin 32, lidx_main_v12 (ix4 b h n m) d = ix4 b h n d := fun d => funext fun a => Fin.ext (by
    match a with | ⟨0, _⟩ => rfl | ⟨1, _⟩ => rfl | ⟨2, _⟩ => rfl | ⟨3, _⟩ => rfl)
  have er : ∀ d : Fin 32, ridx_main_v12 (ix4 b h n m) d = ix4 b h m d := fun d => funext fun a => Fin.ext (by
    match a with | ⟨0, _⟩ => rfl | ⟨1, _⟩ => rfl | ⟨2, _⟩ => rfl | ⟨3, _⟩ => rfl)
  simp only [el, er, query_apply, key_apply]
  rfl

/-- Window b is slot b mod 64 of group b / 64. -/
theorem split_index (b : Fin 4096) (h : Fin 12) (n m : Fin 49) :
    idx_main_v32 (ix4 b h n m)
      = ix5 (⟨b.val / 64, by have := b.isLt; omega⟩ : Fin 64) (cyc b) h n m := by
  have hb := b.isLt; have hh := h.isLt; have hn := n.isLt; have hm := m.isLt
  funext a
  match a with
  | ⟨0, _⟩ => exact Fin.ext (by show (((b.val * 12 + h.val) * 49 + n.val) * 49 + m.val) / 1843968 = b.val / 64; omega)
  | ⟨1, _⟩ => exact Fin.ext (by show (((b.val * 12 + h.val) * 49 + n.val) * 49 + m.val) / 28812 % 64 = b.val % 64; omega)
  | ⟨2, _⟩ => exact Fin.ext (by show (((b.val * 12 + h.val) * 49 + n.val) * 49 + m.val) / 2401 % 12 = h.val; omega)
  | ⟨3, _⟩ => exact Fin.ext (by show (((b.val * 12 + h.val) * 49 + n.val) * 49 + m.val) / 49 % 49 = n.val; omega)
  | ⟨4, _⟩ => exact Fin.ext (by show (((b.val * 12 + h.val) * 49 + n.val) * 49 + m.val) % 49 = m.val; omega)

/-- Slot s of group g is window g·64 + s: the reshape to groups of 64 and back reads the same window. -/
theorem group_index (b : Fin 4096) (h : Fin 12) (n m : Fin 49) :
    idx_main_v28 (idx_main_v32 (ix4 b h n m)) = ix4 b h n m := by
  rw [split_index]
  have hb := b.isLt; have hh := h.isLt; have hn := n.isLt; have hm := m.isLt
  funext a
  match a with
  | ⟨0, _⟩ => exact Fin.ext (by
      show (((((b.val / 64) * 64 + b.val % 64) * 12 + h.val) * 49 + n.val) * 49 + m.val) / 28812 = b.val; omega)
  | ⟨1, _⟩ => exact Fin.ext (by
      show (((((b.val / 64) * 64 + b.val % 64) * 12 + h.val) * 49 + n.val) * 49 + m.val) / 2401 % 12 = h.val; omega)
  | ⟨2, _⟩ => exact Fin.ext (by
      show (((((b.val / 64) * 64 + b.val % 64) * 12 + h.val) * 49 + n.val) * 49 + m.val) / 49 % 49 = n.val; omega)
  | ⟨3, _⟩ => exact Fin.ext (by
      show (((((b.val / 64) * 64 + b.val % 64) * 12 + h.val) * 49 + n.val) * 49 + m.val) % 49 = m.val; omega)

theorem mask_index (b : Fin 4096) (h : Fin 12) (n m : Fin 49) :
    idx_main_v29 (idx_main_v30 (idx_main_v32 (ix4 b h n m))) = ix3 (cyc b) n m := by
  rw [split_index]
  exact funext fun a => Fin.ext (by match a with | ⟨0, _⟩ => rfl | ⟨1, _⟩ => rfl | ⟨2, _⟩ => rfl)

theorem score_apply (b : Fin 4096) (h : Fin 12) (n m : Fin 49) :
    val_main_v32 (F := Ideal) x0 x1 x2 x3 x6 x7 (ix4 b h n m) = score x0 x2 x3 (refBias x6 x7) x1 b h n m := by
  rw [val_main_v32_apply, val_main_v31_apply, val_main_v28_apply, val_main_v30_apply, val_main_v29_apply,
    group_index, mask_index, val_main_v27_apply, scaled_apply, val_main_v26_apply, val_main_v25_apply]
  have e : idx_main_v25 (idx_main_v26 (ix4 b h n m)) = ix3 h n m := funext fun a => Fin.ext (by
    match a with | ⟨0, _⟩ => rfl | ⟨1, _⟩ => rfl | ⟨2, _⟩ => rfl)
  rw [e]
  rfl

end Cert.ReferenceIdeal.RefValue

end
-- ==== Proof.RefResult.lean ====
/-
  The reference's softmax weights, the weighted sum of the values, and the output projection, read at an index, are
  the specification's.
-/
import proofs.«136125_j4853313044771_2_alg».proof.Proof.RefScore
import Mathlib.Data.Finset.Fold

set_option maxRecDepth 8192

noncomputable section

open scoped BigOperators

namespace Cert.ReferenceIdeal.RefValue

open Cert.ReferenceIdeal Cert.ReferenceIdeal.Gen Cert.ReferenceIdeal.Read Idealize.ShloMosaic Idealize.ShloMosaic.ValueIdx Cert.WindowAttn

variable (x0 : (⟨S4096x49x384, .f32⟩ : BufTy).Contents (Elt Ideal)) (x1 : (⟨S64x49x49, .f32⟩ : BufTy).Contents (Elt Ideal))
  (x2 : (⟨S1152x384, .f32⟩ : BufTy).Contents (Elt Ideal)) (x3 : (⟨S1152, .f32⟩ : BufTy).Contents (Elt Ideal))
  (x4 : (⟨S384x384, .f32⟩ : BufTy).Contents (Elt Ideal)) (x5 : (⟨S384, .f32⟩ : BufTy).Contents (Elt Ideal))
  (x6 : (⟨S169x12, .f32⟩ : BufTy).Contents (Elt Ideal)) (x7 : (⟨S49x49, .i32⟩ : BufTy).Contents (Elt Ideal))

/-! ## The row maximum -/

/-- The fold of max over a row is at least the value it starts from, so one more max against that value is idle. -/
theorem max_fold_start (z : EReal) (f : Fin 49 → EReal) :
    max z ((Finset.univ : Finset (Fin 49)).fold max z f) = (Finset.univ : Finset (Fin 49)).fold max z f :=
  max_eq_right (by rw [Finset.le_fold_max]; exact Or.inl le_rfl)

theorem rowMax_apply (b : Fin 4096) (h : Fin 12) (n : Fin 49) :
    val_main_v35 (F := Ideal) x0 x1 x2 x3 x6 x7 (ix3 b h n) = rowMax x0 x2 x3 (refBias x6 x7) x1 b h n := by
  rw [val_main_v35_apply, val_main_v34_apply, val_main_cst_2_apply]
  have hr : S4096x12x49x49.Reduces [3] S4096x12x49 := by decide
  have e : val_main_v33 (F := Ideal) x0 x1 x2 x3 x6 x7 (ix3 b h n)
      = (Finset.univ : Finset (Fin 49)).fold max negInf (fun m => score x0 x2 x3 (refBias x6 x7) x1 b h n m) := by
    unfold val_main_v33
    rw [Host.reduce_eq_fold_single FloatOps.maximumf _ _ reducesTo_S4096x12x49x49_S4096x12x49_d3 hr h_S_]
    have hf : (val_main_v32 (F := Ideal) x0 x1 x2 x3 x6 x7 ∘ hr.lift (ix3 b h n))
        = fun m : Fin 49 => score x0 x2 x3 (refBias x6 x7) x1 b h n m := funext fun m => by
      show val_main_v32 (F := Ideal) x0 x1 x2 x3 x6 x7 (hr.lift (ix3 b h n) m) = _
      rw [show hr.lift (ix3 b h n) m = ix4 b h n m from funext fun a => Fin.ext (by match a with | ⟨0, _⟩ => rfl | ⟨1, _⟩ => rfl | ⟨2, _⟩ => rfl | ⟨3, _⟩ => rfl)]
      exact score_apply x0 x1 x2 x3 x6 x7 b h n m
    rw [hf]
    rfl
  rw [e]
  exact max_fold_start _ _

/-! ## Exponentials, their row sum, the weights -/

theorem ex_apply (b : Fin 4096) (h : Fin 12) (n m : Fin 49) :
    val_main_v39 (F := Ideal) x0 x1 x2 x3 x6 x7 (ix4 b h n m) = ex x0 x2 x3 (refBias x6 x7) x1 b h n m := by
  rw [val_main_v39_apply, val_main_v38_apply, score_apply, val_main_v37_apply, val_main_v36_apply]
  have e : idx_main_v36 (idx_main_v37 (ix4 b h n m)) = ix3 b h n := funext fun a => Fin.ext (by match a with | ⟨0, _⟩ => rfl | ⟨1, _⟩ => rfl | ⟨2, _⟩ => rfl)
  rw [e, rowMax_apply]
  rfl

theorem prob_apply (b : Fin 4096) (h : Fin 12) (n m : Fin 49) :
    val_main_v43 (F := Ideal) x0 x1 x2 x3 x6 x7 (ix4 b h n m) = prob x0 x2 x3 (refBias x6 x7) x1 b h n m := by
  rw [val_main_v43_apply, ex_apply, val_main_v42_apply, val_main_v41_apply]
  have e : idx_main_v41 (idx_main_v42 (ix4 b h n m)) = ix3 b h n := funext fun a => Fin.ext (by match a with | ⟨0, _⟩ => rfl | ⟨1, _⟩ => rfl | ⟨2, _⟩ => rfl)
  rw [e, val_main_v40_apply, val_main_cst_3_apply]
  have ek : ∀ k : Fin 49, idx_main_v40 (ix3 b h n) k = ix4 b h n k := fun k => funext fun a => Fin.ext (by match a with | ⟨0, _⟩ => rfl | ⟨1, _⟩ => rfl | ⟨2, _⟩ => rfl | ⟨3, _⟩ => rfl)
  simp only [ek, ex_apply]
  unfold prob
  show Ideal.div _ (Ideal.ofBits .f32 0x00000000#32 + _) = _
  rw [Ideal.ofBits_zero_f32, zero_add]

/-! ## The weighted sum of the values -/

theorem att_apply (b : Fin 4096) (n : Fin 49) (h : Fin 12) (d : Fin 32) :
    val_main_v44 (F := Ideal) x0 x1 x2 x3 x6 x7 (ix4 b h n d) = att x0 x2 x3 (refBias x6 x7) x1 b n h d := by
  rw [val_main_v44_apply]
  have el : ∀ m : Fin 49, lidx_main_v44 (ix4 b h n d) m = ix4 b h n m := fun m => funext fun a => Fin.ext (by match a with | ⟨0, _⟩ => rfl | ⟨1, _⟩ => rfl | ⟨2, _⟩ => rfl | ⟨3, _⟩ => rfl)
  have er : ∀ m : Fin 49, ridx_main_v44 (ix4 b h n d) m = ix4 b h m d := fun m => funext fun a => Fin.ext (by match a with | ⟨0, _⟩ => rfl | ⟨1, _⟩ => rfl | ⟨2, _⟩ => rfl | ⟨3, _⟩ => rfl)
  simp only [el, er, prob_apply, value_apply]
  rfl

/-- Channel c of token n is coordinate c mod 32 of head c / 32. -/
theorem merged_index (b : Fin 4096) (n : Fin 49) (c : Fin 384) :
    idx_main_v45 (idx_main_v46 (ix3 b n c)) = ix4 b (headOf c) n (coordOf c) := by
  have e : idx_main_v46 (ix3 b n c) = ix4 b n (headOf c) (coordOf c) := by
    have hb := b.isLt; have hn := n.isLt; have hc := c.isLt
    funext a
    match a with
    | ⟨0, _⟩ => exact Fin.ext (by show ((b.val * 49 + n.val) * 384 + c.val) / 18816 = b.val; omega)
    | ⟨1, _⟩ => exact Fin.ext (by show ((b.val * 49 + n.val) * 384 + c.val) / 384 % 49 = n.val; omega)
    | ⟨2, _⟩ => exact Fin.ext (by show ((b.val * 49 + n.val) * 384 + c.val) / 32 % 12 = c.val / 32; omega)
    | ⟨3, _⟩ => exact Fin.ext (by show ((b.val * 49 + n.val) * 384 + c.val) % 32 = c.val % 32; omega)
  rw [e]
  exact funext fun a => Fin.ext (by match a with | ⟨0, _⟩ => rfl | ⟨1, _⟩ => rfl | ⟨2, _⟩ => rfl | ⟨3, _⟩ => rfl)

/-! ## The output projection: the whole result -/

theorem result_apply (i : S4096x49x384.Idx) :
    val_main_v50 (F := Ideal) x0 x1 x2 x3 x4 x5 x6 x7 i = result x0 x2 x3 (refBias x6 x7) x1 x4 x5 i := by
  obtain ⟨b, n, o, rfl⟩ : ∃ (b : Fin 4096) (n : Fin 49) (o : Fin 384), i = ix3 b n o := ⟨i 0, i 1, i 2, eq_ix3 i⟩
  rw [val_main_v50_apply, val_main_v47_apply, val_main_v49_apply, val_main_v48_apply]
  have el : ∀ c : Fin 384, lidx_main_v47 (ix3 b n o) c = ix3 b n c := fun c => funext fun a => Fin.ext (by match a with | ⟨0, _⟩ => rfl | ⟨1, _⟩ => rfl | ⟨2, _⟩ => rfl)
  have er : ∀ c : Fin 384, ridx_main_v47 (ix3 b n o) c = ix2 o c := fun c => funext fun a => Fin.ext (by
    match a with | ⟨0, _⟩ => rfl | ⟨1, _⟩ => rfl)
  have eb : idx_main_v48 (idx_main_v49 (ix3 b n o)) = ix1 o := funext fun a => Fin.ext (by
    match a with | ⟨0, _⟩ => rfl)
  simp only [el, er, eb, val_main_v46_apply, val_main_v45_apply, merged_index, att_apply]
  rfl

/-- The reference's result array is the specification's. -/
theorem result_eq :
    val_main_v50 (F := Ideal) x0 x1 x2 x3 x4 x5 x6 x7 = result x0 x2 x3 (refBias x6 x7) x1 x4 x5 :=
  funext fun i => result_apply x0 x1 x2 x3 x4 x5 x6 x7 i

end Cert.ReferenceIdeal.RefValue

end
-- ==== Proof.lean ====
/-
  Window attention with a relative-position bias and a window mask: the Pallas kernel against its jnp reference.

  The frames.  The kernel's program, word-level and idealized, is one pallas_call over 128 grid points after a few
  host slices, reshapes and a gather; its frame is the pipeline's, from the body's run at every point (the body fills
  three scratch slabs, loops eight times over four windows storing into the output buffer, reads it back and stores the
  output projection).  The reference is host operations only; its frame is its run.

  The ideal pass rewrote nothing, so there is nothing to preserve.

  The values.  On the extended reals both programs end with one and the same function of the argument arrays (Proof/Spec.lean):
  per window and head, the softmax over the key tokens of (q·k)·σ + bias + mask, weighted over the values, then the output
  projection.  The kernel side: the body's output block as a function of its loaded blocks, the blocks placed in the
  array, the 128 blocks tiling it.  The reference side: its operations read one at a time at an index.  The two sides
  gather the bias by the same host operations, and only re-index sums; no law of the extended reals beyond that is used,
  so the precondition is not opened.
-/
import proofs.«136125_j4853313044771_2_alg».proof.Defs
import proofs.«136125_j4853313044771_2_alg».proof.Proof.Gen.Kernel
import proofs.«136125_j4853313044771_2_alg».proof.Proof.Gen.KernelIdeal
import proofs.«136125_j4853313044771_2_alg».proof.Proof.Gen.ReferenceIdeal
import proofs.«136125_j4853313044771_2_alg».proof.Proof.Gen.Pre_finite_inputs
import proofs.«136125_j4853313044771_2_alg».proof.Proof.KernelFrame
import proofs.«136125_j4853313044771_2_alg».proof.Proof.KernelIdealFrame
import proofs.«136125_j4853313044771_2_alg».proof.Proof.KernelResult
import proofs.«136125_j4853313044771_2_alg».proof.Proof.Gen.ReferenceIdeal.Run
import proofs.«136125_j4853313044771_2_alg».proof.Proof.Gen.ReferenceIdeal.Read
import proofs.«136125_j4853313044771_2_alg».proof.Proof.RefResult
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.GenP.frame m ρ

theorem frame_ideal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's result of the argument arrays: the kernel's result array block by block,
    the reference's operation by operation; the bias both gather by the same host operations. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v50_eq, Cert.ReferenceIdeal.RefValue.result_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
